-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x256 .f32) (main_arg6 : FVec F S256 .f32) (main_arg7 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256x256 .f32) (main_arg6 : FVec F S256 .f32) (main_arg7 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S1 : Shape := ⟨1, ![1]⟩
abbrev S1x1 : Shape := ⟨2, ![1, 1]⟩
abbrev S800000x256 : Shape := ⟨2, ![800000, 256]⟩
abbrev S2000x256 : Shape := ⟨2, ![2000, 256]⟩
abbrev S2000x1 : Shape := ⟨2, ![2000, 1]⟩
abbrev S1x256 : Shape := ⟨2, ![1, 256]⟩

abbrev nBuf : Space → Nat
  | .hbm => 100
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .i32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S50000x1, .f32⟩
  | .hbm, ⟨40, _⟩ => ⟨S256x256, .bf16⟩
  | .hbm, ⟨41, _⟩ => ⟨S256x256, .bf16⟩
  | .hbm, ⟨42, _⟩ => ⟨S256x256, .bf16⟩
  | .hbm, ⟨43, _⟩ => ⟨S256x256, .bf16⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S1, .i32⟩
  | .hbm, ⟨53, _⟩ => ⟨S_, .i32⟩
  | .hbm, ⟨54, _⟩ => ⟨S800000x1, .i32⟩
  | .hbm, ⟨55, _⟩ => ⟨S800000x1, .i1⟩
  | .hbm, ⟨56, _⟩ => ⟨S1x1, .i32⟩
  | .hbm, ⟨57, _⟩ => ⟨S800000x1, .i32⟩
  | .hbm, ⟨58, _⟩ => ⟨S800000x1, .i1⟩
  | .hbm, ⟨59, _⟩ => ⟨S800000x1, .i1⟩
  | .hbm, ⟨60, _⟩ => ⟨S_, .i1⟩
  | .hbm, ⟨61, _⟩ => ⟨S800000, .i1⟩
  | .hbm, ⟨62, _⟩ => ⟨S800000x256, .f32⟩
  | .hbm, ⟨63, _⟩ => ⟨S800000x256, .i1⟩
  | .hbm, ⟨64, _⟩ => ⟨S_, .f32⟩
  | .hbm, ⟨65, _⟩ => ⟨S800000x256, .f32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S50000x256, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S1, .i32⟩
  | .hbm, ⟨81, _⟩ => ⟨S_, .i32⟩
  | .hbm, ⟨82, _⟩ => ⟨S800000x1, .i32⟩
  | .hbm, ⟨83, _⟩ => ⟨S800000x1, .i1⟩
  | .hbm, ⟨84, _⟩ => ⟨S1x1, .i32⟩
  | .hbm, ⟨85, _⟩ => ⟨S800000x1, .i32⟩
  | .hbm, ⟨86, _⟩ => ⟨S800000x1, .i1⟩
  | .hbm, ⟨87, _⟩ => ⟨S800000x1, .i1⟩
  | .hbm, ⟨88, _⟩ => ⟨S_, .i1⟩
  | .hbm, ⟨89, _⟩ => ⟨S800000, .i1⟩
  | .hbm, ⟨90, _⟩ => ⟨S800000x256, .f32⟩
  | .hbm, ⟨91, _⟩ => ⟨S800000x256, .i1⟩
  | .hbm, ⟨92, _⟩ => ⟨S_, .f32⟩
  | .hbm, ⟨93, _⟩ => ⟨S800000x256, .f32⟩
  | .hbm, ⟨94, _⟩ => ⟨S800000x256, .f32⟩
  | .hbm, ⟨95, _⟩ => ⟨S_, .f32⟩
  | .hbm, ⟨96, _⟩ => ⟨S50000x256, .f32⟩
  | .hbm, ⟨97, _⟩ => ⟨S800000x1, .i32⟩
  | .hbm, ⟨98, _⟩ => ⟨S50000x256, .f32⟩
  | .hbm, ⟨99, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x256, .f32⟩
  | .local _ .vmem, ⟨5, _⟩ => ⟨S2000x256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S256x256, .bf16⟩
  | .local _ .vmem, ⟨18, _⟩ => ⟨S256, .f32⟩
  | .local _ .vmem, ⟨19, _⟩ => ⟨S256x256, .bf16⟩
  | .local _ .vmem, ⟨20, _⟩ => ⟨S2000x256, .f32⟩
  | .local _ .vmem, ⟨21, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1_0 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v28 : Ref sig .tc := ⟨.hbm, 66, rfl⟩
abbrev main_cst_4 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v33 : Ref sig .tc := ⟨.hbm, 94, rfl⟩
abbrev main_cst_5 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bitsLt_bf16_f32 : FTy.bits .bf16 < FTy.bits .f32
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  gather_S800000_S800000x1_S800000_n_0_n_n_0_1_1_wf : GatherDims.WF S800000 S800000x1 S800000 [] [0] [] [0] [] 1 ![1]
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v31) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 105
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S1, .i32⟩
  | .hbm, ⟨21, _⟩ => ⟨S_, .i32⟩
  | .hbm, ⟨22, _⟩ => ⟨S800000x1, .i32⟩
  | .hbm, ⟨23, _⟩ => ⟨S800000x1, .i1⟩
  | .hbm, ⟨24, _⟩ => ⟨S1x1, .i32⟩
  | .hbm, ⟨25, _⟩ => ⟨S800000x1, .i32⟩
  | .hbm, ⟨26, _⟩ => ⟨S800000x1, .i1⟩
  | .hbm, ⟨27, _⟩ => ⟨S800000x1, .i1⟩
  | .hbm, ⟨28, _⟩ => ⟨S_, .i1⟩
  | .hbm, ⟨29, _⟩ => ⟨S800000, .i1⟩
  | .hbm, ⟨30, _⟩ => ⟨S800000x256, .f32⟩
  | .hbm, ⟨31, _⟩ => ⟨S800000x256, .i1⟩
  | .hbm, ⟨32, _⟩ => ⟨S_, .f32⟩
  | .hbm, ⟨33, _⟩ => ⟨S800000x256, .f32⟩
  | .hbm, ⟨34, _⟩ => ⟨S800000x256, .f32⟩
  | .hbm, ⟨35, _⟩ => ⟨S_, .f32⟩
  | .hbm, ⟨36, _⟩ => ⟨S50000x256, .f32⟩
  | .hbm, ⟨37, _⟩ => ⟨S800000x1, .i32⟩
  | .hbm, ⟨38, _⟩ => ⟨S50000x256, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S_, .f32⟩
  | .hbm, ⟨58, _⟩ => ⟨S50000x256, .f32⟩
  | .hbm, ⟨59, _⟩ => ⟨S50000x256, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S1, .i32⟩
  | .hbm, ⟨69, _⟩ => ⟨S_, .i32⟩
  | .hbm, ⟨70, _⟩ => ⟨S800000x1, .i32⟩
  | .hbm, ⟨71, _⟩ => ⟨S800000x1, .i1⟩
  | .hbm, ⟨72, _⟩ => ⟨S1x1, .i32⟩
  | .hbm, ⟨73, _⟩ => ⟨S800000x1, .i32⟩
  | .hbm, ⟨74, _⟩ => ⟨S800000x1, .i1⟩
  | .hbm, ⟨75, _⟩ => ⟨S800000x1, .i1⟩
  | .hbm, ⟨76, _⟩ => ⟨S_, .i1⟩
  | .hbm, ⟨77, _⟩ => ⟨S800000, .i1⟩
  | .hbm, ⟨78, _⟩ => ⟨S800000x256, .f32⟩
  | .hbm, ⟨79, _⟩ => ⟨S800000x256, .i1⟩
  | .hbm, ⟨80, _⟩ => ⟨S_, .f32⟩
  | .hbm, ⟨81, _⟩ => ⟨S800000x256, .f32⟩
  | .hbm, ⟨82, _⟩ => ⟨S800000x256, .f32⟩
  | .hbm, ⟨83, _⟩ => ⟨S_, .f32⟩
  | .hbm, ⟨84, _⟩ => ⟨S50000x256, .f32⟩
  | .hbm, ⟨85, _⟩ => ⟨S800000x1, .i32⟩
  | .hbm, ⟨86, _⟩ => ⟨S50000x256, .f32⟩
  | .hbm, ⟨87, _⟩ => ⟨S_, .f32⟩
  | .hbm, ⟨88, _⟩ => ⟨S800000, .f32⟩
  | .hbm, ⟨89, _⟩ => ⟨S_, .f32⟩
  | .hbm, ⟨90, _⟩ => ⟨S50000, .f32⟩
  | .hbm, ⟨91, _⟩ => ⟨S800000x1, .i32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x256, .f32⟩
  | .hbm, ⟨98, _⟩ => ⟨S50000x256, .f32⟩
  | .hbm, ⟨99, _⟩ => ⟨S50000x256, .f32⟩
  | .hbm, ⟨100, _⟩ => ⟨S1x256, .f32⟩
  | .hbm, ⟨101, _⟩ => ⟨S50000x256, .f32⟩
  | .hbm, ⟨102, _⟩ => ⟨S50000x256, .f32⟩
  | .hbm, ⟨103, _⟩ => ⟨S50000x256, .f32⟩
  | .hbm, ⟨104, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call1_cst : Ref sig .tc := ⟨.hbm, 57, rfl⟩
abbrev main_call1_v0 : Ref sig .tc := ⟨.hbm, 58, rfl⟩
abbrev main_v23 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v24 : Ref sig .tc := ⟨.hbm, 82, rfl⟩
abbrev main_cst_3 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_cst_4 : Ref sig .tc := ⟨.hbm, 87, rfl⟩
abbrev main_v28 : Ref sig .tc := ⟨.hbm, 88, rfl⟩
abbrev main_cst_5 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_cst_6 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KerRun.lean ====
/-
  The idealized kernel program's run with its result named: every weakly fair execution of @main terminates without
  a fault, leaves the argument arrays as launched, and leaves the result array at what the second pipelined region's
  write-backs fold to (the last boundary's contents read at the result buffer).
-/
import proofs.«136564_j80066780332145_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its nine segments, read at the result buffer and at the eight arguments: the final
    state holds every unscoped buffer at the last boundary's contents. -/
theorem run_main : θ_run defs (onTc (τ := τ) (main (F := F))) ⟨m, fun _ => 0, ρ⟩ (fun r => ∀ c : Dev nD,
      r.2.mem ((c.tc : Thread nD τ).loc main_v37) = W9 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v37 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Run

end
-- ==== Proof.LibLinRelu.lean ====
/-
  The one law this certificate rests on, at the exact values: a row-by-column product followed by a
  rectification, read at one output element, is  max (∑ₖ x[p,k] · w[k,q]) 0  — whether it is spelt as a
  matrix unit's product into a zero accumulator of operands narrowed to sixteen bits (the narrowing is the identity
  on exact values) and a maximum with a splat zero, or as a host contraction followed by a maximum with a broadcast
  zero.  Both spellings sum over the contraction shape's own index type; the sums are re-indexed through the one
  contracted axis's coordinate, so that two contractions of different row counts meet in the same sum over `Fin K`.
-/
import Idealize.ShloMosaic.PureOps.Ideal.Laws
import Idealize.ShloMosaic.Lib.ValueIdx
import Idealize.ShloMosaic.Lib.Pipeline.Value

noncomputable section

namespace Cert.LinRelu

open Idealize.ShloMosaic Idealize.ShloMosaic.ValueIdx

/-- A sum over a one-axis contraction index is the sum over that axis's coordinate, once each operand's index
    at the coordinate is known. -/
theorem contr_sum {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- The kernel body's value at one element of its output block: the operands cast to their own shape, narrowed,
    multiplied into a zero accumulator, and the maximum taken with a splat zero. -/
theorem body_apply {sl sr so : Shape} (d : DotDims sl sr so) (x : FVec Ideal sl .f32) (w : FVec Ideal sr .f32)
    (hcl : sl.ShapeCasts sl) (hcr : sr.ShapeCasts sr) (hb : (FTy.bf16).bits < (FTy.f32).bits) (j : so.Idx) :
    maximumf (matmul d none (truncf .bf16 (shapeCast sl x hcl) hb) (truncf .bf16 (shapeCast sr w hcr) hb)
        (constant so .f32 0x00000000#32)) (broadcast so (Scalar.ofBits .f32 0x00000000#32)) j
      = max (∑ q : d.contr.Idx, x (d.lhsIdx j q) * w (d.rhsIdx j q)) 0 := by
  rw [shapeCast_self, shapeCast_self]
  show max (FloatOps.matmul d none (truncf .bf16 x hb) (truncf .bf16 w hb) (constant so .f32 0x00000000#32) j)
    (Ideal.ofBits .f32 0x00000000#32) = _
  rw [Ideal.matmul_constant_zero_apply, Ideal.ofBits_zero_f32]
  rfl

/-- The host's contraction followed by the maximum with a broadcast zero, at one element. -/
theorem host_apply {sl sr so : Shape} (d : DotDims sl sr so) (l : FVec Ideal sl .f32) (r : FVec Ideal sr .f32)
    (hz : (⟨0, ![]⟩ : Shape).BroadcastsInDim so (![] : Fin 0 → Fin so.rank)) (i : so.Idx) :
    maximumf (Host.dotGeneral d none l r) (broadcastInDim so ![] hz (constant (F := Ideal) ⟨0, ![]⟩ .f32 0x00000000#32)) i
      = max (∑ q : d.contr.Idx, l (d.lhsIdx i q) * r (d.rhsIdx i q)) 0 := by
  show max (Host.dotGeneral d none l r i) (broadcastInDim so ![] hz (constant (F := Ideal) ⟨0, ![]⟩ .f32 0x00000000#32) i) = _
  rw [broadcastInDim_apply _ hz _ i ValueIdx.ix0 (fun a => a.elim0)]
  simp only [Host.dotGeneral]
  rw [Ideal.dotGeneral_apply]
  show max _ (Ideal.ofBits .f32 0x00000000#32) = _
  rw [Ideal.ofBits_zero_f32]

/-! ## The plain product: rows by columns, one contracted axis -/

section Plain

variable (M K N : Nat)

theorem plain_rank : (DotDims.plain M K N).contr.rank = 1 := rfl
theorem plain_size : (DotDims.plain M K N).contr.size ⟨0, by rw [plain_rank]; exact Nat.one_pos⟩ = K := rfl

/-- For the plain product the contraction at output element (p, q) runs over x[p, k] · w[k, q]. -/
theorem plain_contr_sum (l : (⟨2, ![M, K]⟩ : Shape).Idx → EReal) (r : (⟨2, ![K, N]⟩ : Shape).Idx → EReal) (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  refine contr_sum (DotDims.plain M K N) K (plain_rank M K N) (plain_size M K N) l r (ix2 p q)
    (fun k => ix2 p k) (fun k => ix2 k q) (fun k => ?_) (fun k => ?_)
  · funext a
    apply Fin.ext
    have hk := contrEquiv1_symm_val (DotDims.plain M K N) K (plain_rank M K N) (plain_size M K N) k
    match a with
    | ⟨0, _⟩ => rfl
    | ⟨1, _⟩ => exact ((DotDims.plain M K N).lhsIdx_val_of_single rfl _ _).trans hk
  · funext a
    apply Fin.ext
    have hk := contrEquiv1_symm_val (DotDims.plain M K N) K (plain_rank M K N) (plain_size M K N) k
    match a with
    | ⟨0, _⟩ => exact ((DotDims.plain M K N).rhsIdx_val_of_single rfl _ _).trans hk
    | ⟨1, _⟩ => rfl

/-- The kernel body's value at element (p, q) of its block, for any record that is the plain product's. -/
theorem body_plain (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32)
    (hcl : (⟨2, ![M, K]⟩ : Shape).ShapeCasts ⟨2, ![M, K]⟩) (hcr : (⟨2, ![K, N]⟩ : Shape).ShapeCasts ⟨2, ![K, N]⟩)
    (hb : (FTy.bf16).bits < (FTy.f32).bits) (p : Fin M) (q : Fin N) :
    maximumf (matmul d none (truncf .bf16 (shapeCast ⟨2, ![M, K]⟩ x hcl) hb) (truncf .bf16 (shapeCast ⟨2, ![K, N]⟩ w hcr) hb)
        (constant ⟨2, ![M, N]⟩ .f32 0x00000000#32)) (broadcast ⟨2, ![M, N]⟩ (Scalar.ofBits .f32 0x00000000#32)) (ix2 p q)
      = max (∑ k : Fin K, x (ix2 p k) * w (ix2 k q)) 0 := by
  subst hd
  rw [body_apply, plain_contr_sum]

/-- The host's contraction and rectification at element (i, q), for any record that is the plain product's. -/
theorem host_plain (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32)
    (hz : (⟨0, ![]⟩ : Shape).BroadcastsInDim ⟨2, ![M, N]⟩ (![] : Fin 0 → Fin 2)) (i : Fin M) (q : Fin N) :
    maximumf (Host.dotGeneral d none l r) (broadcastInDim ⟨2, ![M, N]⟩ ![] hz (constant (F := Ideal) ⟨0, ![]⟩ .f32 0x00000000#32)) (ix2 i q)
      = max (∑ k : Fin K, l (ix2 i k) * r (ix2 k q)) 0 := by
  subst hd
  rw [host_apply, plain_contr_sum]

end Plain

end Cert.LinRelu

end
-- ==== Proof.LibGraphLaws.lean ====
/-
  GENERAL LEMMAS on the extended reals (no program imported): powers of zero and of squares against quotients and square roots,
  with the float words 0, 1, 2, 1/2, 1/4, −2 as reals. They are the laws that join the two programs of this certificate. Both compute one layer of a graph network:
  each atom's features are the square roots of the magnitudes of its inputs, a neighbour's contribution is weighted
  by the inverse squared length of the bond to it (the weights normalised to sum to one), and each bond is updated
  from its two end atoms, whose features are normalised by their column sums. The programs differ in how they spell
  four things, and each spelling agrees on the reals where the certificate's precondition puts the inputs:

    * the fourth root of a square against the square root of a magnitude:   (a²)^(1/4) = √|a|          (every real a);
    * a square root raised to the power −2 against a reciprocal:            (s^(1/2))^(−2) = 1/s       (s > 0);
    * a quotient against a product with a reciprocal:                       x / d = x · (1/d)          (d ≠ 0 real);
    * the magnitude of a value clamped at zero against the value:           |max y 0| = max y 0.

  The second law is where the precondition's positivity of every bond's squared length is used: at s = 0 the power
  is 0 and the quotient is +∞.
-/
import Idealize.ShloMosaic.PureOps.Ideal

noncomputable section

namespace Cert.GraphLaws

open Idealize.ShloMosaic

/-! ## The float words the two programs spell, as reals -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

/-! ## The four laws -/

/-- The fourth root of a real's square is the square root of its magnitude. -/
theorem pow_two_quarter (a : ℝ) :
    Ideal.pow (Ideal.pow (a : EReal) ((2 : ℝ) : EReal)) ((1 / 4 : ℝ) : EReal)
      = Ideal.sqrt (max (a : EReal) (-(a : EReal))) := by
  have h : ((a ^ (2 : ℝ)) ^ ((1 : ℝ) / 4)) = Real.sqrt |a| := by
    rw [Real.rpow_two, ← sq_abs, ← Real.rpow_two, ← Real.rpow_mul (abs_nonneg a), Real.sqrt_eq_rpow]
    norm_num
  have hm : max (a : EReal) (-(a : EReal)) = ((|a| : ℝ) : EReal) := by
    rw [← EReal.coe_neg]
    rcases le_total 0 a with h | h
    · rw [abs_of_nonneg h, max_eq_left]; exact EReal.coe_le_coe_iff.mpr (by linarith)
    · rw [abs_of_nonpos h, max_eq_right]; exact EReal.coe_le_coe_iff.mpr (by linarith)
  rw [hm, Ideal.pow_coe_coe, Ideal.pow_coe_coe, Ideal.sqrt_coe, if_neg (not_lt.mpr (abs_nonneg a))]
  exact congrArg _ h

/-- A positive real's square root, raised to the power −2, is its reciprocal. -/
theorem pow_half_neg_two {s : ℝ} (hs : 0 < s) :
    Ideal.pow (Ideal.pow (s : EReal) ((1 / 2 : ℝ) : EReal)) ((-2 : ℝ) : EReal) = Ideal.div 1 (s : EReal) := by
  have h : ((s ^ ((1 : ℝ) / 2)) ^ (-2 : ℝ)) = 1 / s := by
    rw [← Real.rpow_mul hs.le, show ((1 : ℝ) / 2) * (-2) = -1 by norm_num, Real.rpow_neg_one, one_div]
  rw [Ideal.pow_coe_coe, Ideal.pow_coe_coe, Ideal.div_coe hs.ne', one_mul]
  exact congrArg _ h

/-- Dividing by a non-zero real is multiplying by its reciprocal. -/
theorem div_eq_mul_recip {d : ℝ} (hd : d ≠ 0) (x : EReal) :
    Ideal.div x (d : EReal) = x * Ideal.div 1 (d : EReal) := by
  rw [Ideal.div_coe hd, Ideal.div_coe hd, one_mul]

/-- A value clamped at zero is its own magnitude. -/
theorem abs_max_zero (y : EReal) : max (max y 0) (-(max y 0)) = max y 0 := by
  have h0 : (0 : EReal) ≤ max y 0 := le_max_right _ _
  have h1 : -(max y 0) ≤ 0 := by
    have h := EReal.neg_le_neg_iff.mpr h0
    rwa [neg_zero] at h
  exact max_eq_left (h1.trans h0)

end Cert.GraphLaws

end
-- ==== Proof.Dense.lean ====
/-
  The dense combination of one graph layer at the exact values, and the kernel body's payload read at one element.

  For a node r and an output feature q the layer computes

      v = ∑ₖ (S[r,k] · (1 / max(D[r], 1))) · W_l[k,q]  +  b[q]  +  ∑ₖ x[r,k] · W_r[k,q],

  rectified (max v 0) in the first layer and plain in the second. S is the per-node sum of neighbour rows, D the
  per-node in-degree (a one-column matrix), x the node's own features. The kernel body computes exactly this on a
  block of 2000 rows: the narrowing of the matrix operands to sixteen bits is the identity on exact values, and a
  matrix product into a zero accumulator is the bare sum of products.
-/
import proofs.«136564_j80066780332145_2_alg».proof.Proof.Gen.KernelIdeal.Skeleton
import proofs.«136564_j80066780332145_2_alg».proof.Proof.LibLinRelu
import proofs.«136564_j80066780332145_2_alg».proof.Proof.LibGraphLaws
import Idealize.ShloMosaic.Lib.Pipeline.Value
import Idealize.ShloMosaic.Lib.ValueLayout

noncomputable section

open scoped BigOperators

namespace Cert.KernelIdeal.Dense

open Idealize.ShloMosaic Idealize.ShloMosaic.ValueIdx Cert.KernelIdeal Cert.KernelIdeal.Gen

/-- The layer's value before the optional rectifier, at node `r` and feature `q`, over `R` rows. -/
def pre {R : Nat} (S : (⟨2, ![R, 256]⟩ : Shape).Idx → EReal) (D : (⟨2, ![R, 1]⟩ : Shape).Idx → EReal)
    (x : (⟨2, ![R, 256]⟩ : Shape).Idx → EReal) (wl : (⟨2, ![256, 256]⟩ : Shape).Idx → EReal)
    (b : (⟨1, ![256]⟩ : Shape).Idx → EReal) (wr : (⟨2, ![256, 256]⟩ : Shape).Idx → EReal) (r : Fin R) (q : Fin 256) : EReal :=
  (∑ k : Fin 256, (S (ix2 r k) * Ideal.div 1 (max (D (ix2 r 0)) 1)) * wl (ix2 k q)) + b (ix1 q)
    + ∑ k : Fin 256, x (ix2 r k) * wr (ix2 k q)

/-- The layer's value at node `r` and feature `q`: rectified or plain. -/
def cell {R : Nat} (relu : Bool) (S : (⟨2, ![R, 256]⟩ : Shape).Idx → EReal) (D : (⟨2, ![R, 1]⟩ : Shape).Idx → EReal)
    (x : (⟨2, ![R, 256]⟩ : Shape).Idx → EReal) (wl : (⟨2, ![256, 256]⟩ : Shape).Idx → EReal)
    (b : (⟨1, ![256]⟩ : Shape).Idx → EReal) (wr : (⟨2, ![256, 256]⟩ : Shape).Idx → EReal) (r : Fin R) (q : Fin 256) : EReal :=
  if relu then max (pre S D x wl b wr r q) 0 else pre S D x wl b wr r q

/-- The layer as a whole-array function of its six operands. -/
def combine (relu : Bool) (S : S50000x256.Idx → EReal) (D : S50000x1.Idx → EReal) (x : S50000x256.Idx → EReal)
    (wl : S256x256.Idx → EReal) (b : S256.Idx → EReal) (wr : S256x256.Idx → EReal) : S50000x256.Idx → EReal :=
  fun i => cell relu S D x wl b wr (i 0) (i 1)

theorem dot_plain [Facts₀] : dot_S2000x256_S256x256_S2000x256_1_0_0_1_n_n = DotDims.plain 2000 256 256 := rfl

/-- A column of per-row values broadcast along the rows' features, read at (p, q): the value of row p. -/
theorem bcast_col_apply {α : Type} (v : S2000x1.Idx → α) (h : S2000x1.Broadcasts S2000x256) (p : Fin 2000) (q : Fin 256) :
    broadcastTo S2000x256 v h (ix2 p q) = v (ix2 p 0) :=
  broadcastTo_apply v h (ix2 p q) (ix2 p 0) (fun a => by
    match a with
    | ⟨0, _⟩ => rfl
    | ⟨1, _⟩ => rfl)

/-- A feature vector laid as one row and broadcast down the rows, read at (p, q): entry q. -/
theorem bcast_row_apply {α : Type} (v : S256.Idx → α) (h1 : S256.ShapeCasts S1x256) (h2 : S1x256.Broadcasts S2000x256)
    (p : Fin 2000) (q : Fin 256) :
    broadcastTo S2000x256 (shapeCast S1x256 v h1) h2 (ix2 p q) = v (ix1 q) := by
  rw [broadcastTo_1b_ab_apply, shapeCast_a_1a_apply]

/-- A quotient of one by the degree clamped below at one, read at row p. -/
theorem inv_deg_apply (v0 : FVec Ideal S2000x1 .f32) (p : Fin 2000) :
    divf (broadcast S2000x1 (Scalar.ofBits (F := Ideal) .f32 0x3F800000#32))
        (maximumf v0 (broadcast S2000x1 (Scalar.ofBits (F := Ideal) .f32 0x3F800000#32))) (ix2 p 0)
      = Ideal.div 1 (max (v0 (ix2 p 0)) 1) := by
  rw [divf_apply, maximumf_apply, broadcast_apply]
  show Ideal.div (Ideal.ofBits .f32 0x3F800000#32) (max (v0 (ix2 p 0)) (Ideal.ofBits .f32 0x3F800000#32)) = _
  rw [Cert.GraphLaws.ofBits_one]
  rfl

/-- A matrix product into the zero splat, read at an element: the bare sum of products over the contraction. -/
theorem matmul_zero_apply {sl sr so : Shape} {φ₁ φ₂ : FTy} (d : DotDims sl sr so) (l : FVec Ideal sl φ₁) (r : FVec Ideal sr φ₂) (j : so.Idx) :
    matmul d none l r (constant so .f32 0x00000000#32) j = ∑ k : d.contr.Idx, l (d.lhsIdx j k) * r (d.rhsIdx j k) :=
  Ideal.matmul_constant_zero_apply d none l r j

/-- The body's sum of two matrix products and the bias, read at element (p, q) of the block: the layer's value
    before the rectifier, over the block's 2000 rows. -/
theorem body_apply (v0 : FVec Ideal S2000x1 .f32) (v6 v11 : FVec Ideal S2000x256 .f32)
    (v13 v15 : FVec Ideal S256x256 .bf16) (v18 : FVec Ideal S256 .f32)
    (hB : S2000x1.Broadcasts S2000x256) (hb : (FTy.bf16).bits < (FTy.f32).bits) (h1 : S256.ShapeCasts S1x256)
    (h2 : S1x256.Broadcasts S2000x256) (p : Fin 2000) (q : Fin 256) :
    addf (addf
        (matmul (DotDims.plain 2000 256 256) none
          (truncf .bf16 (mulf v6 (broadcastTo S2000x256
            (divf (broadcast S2000x1 (Scalar.ofBits (F := Ideal) .f32 0x3F800000#32))
              (maximumf v0 (broadcast S2000x1 (Scalar.ofBits (F := Ideal) .f32 0x3F800000#32)))) hB)) hb)
          v13 (constant S2000x256 .f32 0x00000000#32))
        (broadcastTo S2000x256 (shapeCast S1x256 v18 h1) h2))
      (matmul (DotDims.plain 2000 256 256) none (truncf .bf16 v11 hb) v15 (constant S2000x256 .f32 0x00000000#32)) (ix2 p q)
      = pre v6 v0 v11 v13 v18 v15 p q := by
  rw [addf_apply, addf_apply, matmul_zero_apply, matmul_zero_apply, bcast_row_apply,
    Cert.LinRelu.plain_contr_sum, Cert.LinRelu.plain_contr_sum]
  unfold pre
  refine congrArg (fun s => s + v18 (ix1 q) + _) (Finset.sum_congr rfl fun k _ => ?_)
  rw [truncf_apply, mulf_apply, bcast_col_apply, inv_deg_apply]

/-- The first layer's payload at element (p, q) of its block: the rectified combination of the block's rows. -/
theorem pay0_apply [Facts₀] (v0 : FVec Ideal S2000x1 .f32) (v6 v11 : FVec Ideal S2000x256 .f32)
    (v13 v15 : FVec Ideal S256x256 .bf16) (v18 : FVec Ideal S256 .f32) (p : Fin 2000) (q : Fin 256) :
    k0_pay1 (F := Ideal) v0 v6 v11 v13 v15 v18 (ix2 p q) = cell true v6 v0 v11 v13 v18 v15 p q := by
  unfold k0_pay1
  simp only [shapeCast_self]
  rw [dot_plain, maximumf_apply, body_apply, broadcast_apply]
  unfold cell
  rw [if_pos rfl]
  exact congrArg (max _) Cert.GraphLaws.ofBits_zero

/-- The second layer's payload at element (p, q) of its block: the plain combination of the block's rows. -/
theorem pay1_apply [Facts₀] (v0 : FVec Ideal S2000x1 .f32) (v6 v11 : FVec Ideal S2000x256 .f32)
    (v14 v16 : FVec Ideal S256x256 .bf16) (v19 : FVec Ideal S256 .f32) (p : Fin 2000) (q : Fin 256) :
    k1_pay1 (F := Ideal) v0 v6 v11 v14 v16 v19 (ix2 p q) = cell false v6 v0 v11 v14 v19 v16 p q := by
  unfold k1_pay1
  simp only [shapeCast_self]
  rw [dot_plain, body_apply]
  rfl

/-- The layer's value depends on its operands only through the entries it reads: the node's row of the sums and
    of the features, the node's degree, and the weights and the bias entry by entry. -/
theorem cell_congr {R R' : Nat} (relu : Bool)
    {S x : (⟨2, ![R, 256]⟩ : Shape).Idx → EReal} {D : (⟨2, ![R, 1]⟩ : Shape).Idx → EReal}
    {S' x' : (⟨2, ![R', 256]⟩ : Shape).Idx → EReal} {D' : (⟨2, ![R', 1]⟩ : Shape).Idx → EReal}
    {wl wr wl' wr' : (⟨2, ![256, 256]⟩ : Shape).Idx → EReal} {b b' : (⟨1, ![256]⟩ : Shape).Idx → EReal}
    {r : Fin R} {r' : Fin R'} (q : Fin 256)
    (hS : ∀ k, S (ix2 r k) = S' (ix2 r' k)) (hD : D (ix2 r 0) = D' (ix2 r' 0)) (hx : ∀ k, x (ix2 r k) = x' (ix2 r' k))
    (hwl : ∀ k, wl (ix2 k q) = wl' (ix2 k q)) (hb : b (ix1 q) = b' (ix1 q)) (hwr : ∀ k, wr (ix2 k q) = wr' (ix2 k q)) :
    cell relu S D x wl b wr r q = cell relu S' D' x' wl' b' wr' r' q := by
  have hp : pre S D x wl b wr r q = pre S' D' x' wl' b' wr' r' q := by
    unfold pre
    rw [hD, hb]
    refine congrArg₂ (fun s u => s + b' (ix1 q) + u) (Finset.sum_congr rfl fun k _ => ?_) (Finset.sum_congr rfl fun k _ => ?_)
    · rw [hS k, hwl k]
    · rw [hx k, hwr k]
  unfold cell
  rw [hp]

end Cert.KernelIdeal.Dense

end
-- ==== Proof.KerRegion.lean ====
/-
  Each pipelined region's output array as ONE function of the arrays the region finds: the region's grid walks the
  50000 nodes in 25 blocks of 2000 rows; at a point the body reads the block's rows of the summed neighbour features,
  of the degree column and of the node features, and the whole weight matrices and bias, and writes the block's rows
  of the layer's value. Row p of block t is row 2000·t + p of the array, so what each point writes back is the block
  of one whole-array function, and the 25 blocks cover the array.
-/
import proofs.«136564_j80066780332145_2_alg».proof.Proof.Gen.KernelIdeal.Frame
import proofs.«136564_j80066780332145_2_alg».proof.Proof.Dense
import Idealize.ShloMosaic.Lib.Pipeline.Value

set_option maxRecDepth 16384

noncomputable section

namespace Cert.KernelIdeal.Region

open Cert.KernelIdeal Cert.KernelIdeal.Gen Cert.KernelIdeal.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0 -/

/-- The printed index maps over the grid: the row-blocked windows move with the grid point, the weights and the bias
    stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block of rows is some grid point's. -/
theorem idx_onto0 : ∀ q0 : Fin 25, ∃ t : Fin cfg0.N, win0_6.index t = ![q0.val, 0] :=
  (by decide +kernel : ∀ q0 : Fin 25, ∃ t : Fin grid0.N, win0_6.index t = ![q0.val, 0])

/-- Row p of point t's block of the summed rows is row 2000·t + p of the array. -/
theorem blk0_0 (c : Dev nD) (t : Fin cfg0.N) (p : Fin 2000) (k : Fin 256) (r : Fin 50000) (hr : r.val = t.val * 2000 + p.val) :
    iblk0 V c 0 t (ix2 p k) = V c main_v31 (ix2 r k) := by
  have f := idx_facts0 t
  show V c main_v31 (((cfg0.win 0).blk t).view.emb (ix2 p k)) = V c main_v31 (ix2 r k)
  refine congrArg (V c main_v31) (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- Row p of point t's block of the degrees is row 2000·t + p of the column. -/
theorem blk0_1 (c : Dev nD) (t : Fin cfg0.N) (p : Fin 2000) (r : Fin 50000) (hr : r.val = t.val * 2000 + p.val) :
    iblk0 V c 1 t (ix2 p 0) = V c main_v23 (ix2 r 0) := by
  have f := idx_facts0 t
  show V c main_v23 (((cfg0.win 1).blk t).view.emb (ix2 p 0)) = V c main_v23 (ix2 r 0)
  refine congrArg (V c main_v23) (funext fun a => Fin.ext ?_)
  match a with
  | ⟨0, _⟩ => show win0_1.index t (0 : Fin 2) * 2000 + 1 * p.val = r.val; omega
  | ⟨1, _⟩ => show win0_1.index t (1 : Fin 2) * 1 + 1 * 0 = 0; omega

/-- Row p of point t's block of the node features is row 2000·t + p of the array. -/
theorem blk0_2 (c : Dev nD) (t : Fin cfg0.N) (p : Fin 2000) (k : Fin 256) (r : Fin 50000) (hr : r.val = t.val * 2000 + p.val) :
    iblk0 V c 2 t (ix2 p k) = V c main_arg0 (ix2 r k) := by
  have f := idx_facts0 t
  show V c main_arg0 (((cfg0.win 2).blk t).view.emb (ix2 p k)) = V c main_arg0 (ix2 r k)
  refine congrArg (V c main_arg0) (funext fun a => Fin.ext ?_)
  match a with
  | ⟨0, _⟩ => show win0_2.index t (0 : Fin 2) * 2000 + 1 * p.val = r.val; omega
  | ⟨1, _⟩ => show win0_2.index t (1 : Fin 2) * 256 + 1 * k.val = k.val; omega

/-- The neighbour weights' one block is the whole matrix. -/
theorem blk0_3 (c : Dev nD) (t : Fin cfg0.N) (k q : Fin 256) :
    iblk0 V c 3 t (ix2 k q) = V c main_v24 (ix2 k q) := by
  have f := idx_facts0 t
  show V c main_v24 (((cfg0.win 3).blk t).view.emb (ix2 k q)) = V c main_v24 (ix2 k q)
  refine congrArg (V c main_v24) (funext fun a => Fin.ext ?_)
  match a with
  | ⟨0, _⟩ => show win0_3.index t (0 : Fin 2) * 256 + 1 * k.val = k.val; omega
  | ⟨1, _⟩ => show win0_3.index t (1 : Fin 2) * 256 + 1 * q.val = q.val; omega

/-- The bias's one block is the whole vector. -/
theorem blk0_4 (c : Dev nD) (t : Fin cfg0.N) (q : Fin 256) :
    iblk0 V c 4 t (ix1 q) = V c main_arg3 (ix1 q) := by
  have f := idx_facts0 t
  show V c main_arg3 (((cfg0.win 4).blk t).view.emb (ix1 q)) = V c main_arg3 (ix1 q)
  refine congrArg (V c main_arg3) (funext fun a => Fin.ext ?_)
  match a with
  | ⟨0, _⟩ => show win0_4.index t (0 : Fin 1) * 256 + 1 * q.val = q.val; omega

/-- The self weights' one block is the whole matrix. -/
theorem blk0_5 (c : Dev nD) (t : Fin cfg0.N) (k q : Fin 256) :
    iblk0 V c 5 t (ix2 k q) = V c main_v25 (ix2 k q) := by
  have f := idx_facts0 t
  show V c main_v25 (((cfg0.win 5).blk t).view.emb (ix2 k q)) = V c main_v25 (ix2 k q)
  refine congrArg (V c main_v25) (funext fun a => Fin.ext ?_)
  match a with
  | ⟨0, _⟩ => show win0_5.index t (0 : Fin 2) * 256 + 1 * k.val = k.val; omega
  | ⟨1, _⟩ => show win0_5.index t (1 : Fin 2) * 256 + 1 * q.val = q.val; omega

/-- What point t writes back is block t of the layer's whole-array function of the arrays as the region finds them. -/
theorem flushed0_eq (c : Dev nD) (t : Fin cfg0.N) :
    (dat0 V c).flushed 6 t = ((cfg0.win 6).blk t).view.read (Elt Ideal)
      (combine true (V c main_v31) (V c main_v23) (V c main_arg0) (V c main_v24) (V c main_arg3) (V c main_v25)) := by
  show (cfg0.win 6).cut (grid0.coords t) ((dat0 V c).after 6 t) = _
  rw [after0_6]
  unfold out0_6
  rw [View.canon_unit_zero hz2]
  simp only [View.ld_unit_zero (S := S2000x256) hz2, View.ld_unit_zero (S := S2000x1) hz2, View.ld_unit_zero (S := S256x256) hz2,
    View.ld_unit_zero (S := S256) hz1]
  have f := idx_facts0 t
  funext j
  obtain ⟨p, q, rfl⟩ : ∃ (p : Fin 2000) (q : Fin 256), j = ix2 p q := ⟨j 0, j 1, eq_ix2 j⟩
  have hlt : t.val < 25 := lt_of_lt_of_eq t.isLt N_0
  obtain ⟨r, hr⟩ : ∃ r : Fin 50000, r.val = t.val * 2000 + p.val := ⟨⟨t.val * 2000 + p.val, by have := p.isLt; omega⟩, rfl⟩
  have he : ((cfg0.win 6).blk t).view.emb (ix2 p q) = ix2 r q := funext fun a => Fin.ext (by
    match a with
    | ⟨0, _⟩ => show win0_6.index t (0 : Fin 2) * 2000 + 1 * p.val = r.val; omega
    | ⟨1, _⟩ => show win0_6.index t (1 : Fin 2) * 256 + 1 * q.val = q.val; omega)
  show k0_pay1 (iblk0 V c 1 t) (iblk0 V c 0 t) (iblk0 V c 2 t) (iblk0 V c 3 t) (iblk0 V c 5 t) (iblk0 V c 4 t) (ix2 p q)
    = combine true (V c main_v31) (V c main_v23) (V c main_arg0) (V c main_v24) (V c main_arg3) (V c main_v25)
        (((cfg0.win 6).blk t).view.emb (ix2 p q))
  rw [he]
  refine (pay0_apply (iblk0 V c 1 t) (iblk0 V c 0 t) (iblk0 V c 2 t) (iblk0 V c 3 t) (iblk0 V c 5 t) (iblk0 V c 4 t) p q).trans ?_
  show cell true (iblk0 V c 0 t) (iblk0 V c 1 t) (iblk0 V c 2 t) (iblk0 V c 3 t) (iblk0 V c 4 t) (iblk0 V c 5 t) p q
    = cell true (V c main_v31) (V c main_v23) (V c main_arg0) (V c main_v24) (V c main_arg3) (V c main_v25) r q
  exact cell_congr true q (fun k => blk0_0 V c t p k r hr) (blk0_1 V c t p r hr) (fun k => blk0_2 V c t p k r hr)
    (fun k => blk0_3 V c t k q) (blk0_4 V c t q) (fun k => blk0_5 V c t k q)

/-- A node's row is in point t's block iff it is one of the block's 2000 rows. -/
theorem mem_blk0 (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v32).slice (win0_6.rect t)).set ↔ _
  rw [View.set_slice_whole, Rect.mem_set_unit]
  exact Iff.rfl

/-- Every element of the output array is in some point's block: row r is in block r / 2000. -/
theorem cover0 (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ := idx_onto0 ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- The output array after the region: the layer's whole-array function of the arrays as the region finds them. -/
theorem final0 (c : Dev nD) :
    (dat0 V c).arrAt 6 cfg0.N
      = combine true (V c main_v31) (V c main_v23) (V c main_arg0) (V c main_v24) (V c main_arg3) (V c main_v25) :=
  (dat0 V c).arrAt_eq_of_cover 6 _ (fun t _ => flushed0_eq V c t) cover0

/-! ## Region 1 -/

/-- The printed index maps over the grid: the row-blocked windows move with the grid point, the weights and the bias
    stay at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block of rows is some grid point's. -/
theorem idx_onto1 : ∀ q0 : Fin 25, ∃ t : Fin cfg1.N, win1_6.index t = ![q0.val, 0] :=
  (by decide +kernel : ∀ q0 : Fin 25, ∃ t : Fin grid1.N, win1_6.index t = ![q0.val, 0])

/-- Row p of point t's block of the summed rows is row 2000·t + p of the array. -/
theorem blk1_0 (c : Dev nD) (t : Fin cfg1.N) (p : Fin 2000) (k : Fin 256) (r : Fin 50000) (hr : r.val = t.val * 2000 + p.val) :
    iblk1 V c 0 t (ix2 p k) = V c main_v36 (ix2 r k) := by
  have f := idx_facts1 t
  show V c main_v36 (((cfg1.win 0).blk t).view.emb (ix2 p k)) = V c main_v36 (ix2 r k)
  refine congrArg (V c main_v36) (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- Row p of point t's block of the degrees is row 2000·t + p of the column. -/
theorem blk1_1 (c : Dev nD) (t : Fin cfg1.N) (p : Fin 2000) (r : Fin 50000) (hr : r.val = t.val * 2000 + p.val) :
    iblk1 V c 1 t (ix2 p 0) = V c main_v23 (ix2 r 0) := by
  have f := idx_facts1 t
  show V c main_v23 (((cfg1.win 1).blk t).view.emb (ix2 p 0)) = V c main_v23 (ix2 r 0)
  refine congrArg (V c main_v23) (funext fun a => Fin.ext ?_)
  match a with
  | ⟨0, _⟩ => show win1_1.index t (0 : Fin 2) * 2000 + 1 * p.val = r.val; omega
  | ⟨1, _⟩ => show win1_1.index t (1 : Fin 2) * 1 + 1 * 0 = 0; omega

/-- Row p of point t's block of the node features is row 2000·t + p of the array. -/
theorem blk1_2 (c : Dev nD) (t : Fin cfg1.N) (p : Fin 2000) (k : Fin 256) (r : Fin 50000) (hr : r.val = t.val * 2000 + p.val) :
    iblk1 V c 2 t (ix2 p k) = V c main_v32 (ix2 r k) := by
  have f := idx_facts1 t
  show V c main_v32 (((cfg1.win 2).blk t).view.emb (ix2 p k)) = V c main_v32 (ix2 r k)
  refine congrArg (V c main_v32) (funext fun a => Fin.ext ?_)
  match a with
  | ⟨0, _⟩ => show win1_2.index t (0 : Fin 2) * 2000 + 1 * p.val = r.val; omega
  | ⟨1, _⟩ => show win1_2.index t (1 : Fin 2) * 256 + 1 * k.val = k.val; omega

/-- The neighbour weights' one block is the whole matrix. -/
theorem blk1_3 (c : Dev nD) (t : Fin cfg1.N) (k q : Fin 256) :
    iblk1 V c 3 t (ix2 k q) = V c main_v26 (ix2 k q) := by
  have f := idx_facts1 t
  show V c main_v26 (((cfg1.win 3).blk t).view.emb (ix2 k q)) = V c main_v26 (ix2 k q)
  refine congrArg (V c main_v26) (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

/-- The bias's one block is the whole vector. -/
theorem blk1_4 (c : Dev nD) (t : Fin cfg1.N) (q : Fin 256) :
    iblk1 V c 4 t (ix1 q) = V c main_arg6 (ix1 q) := by
  have f := idx_facts1 t
  show V c main_arg6 (((cfg1.win 4).blk t).view.emb (ix1 q)) = V c main_arg6 (ix1 q)
  refine congrArg (V c main_arg6) (funext fun a => Fin.ext ?_)
  match a with
  | ⟨0, _⟩ => show win1_4.index t (0 : Fin 1) * 256 + 1 * q.val = q.val; omega

/-- The self weights' one block is the whole matrix. -/
theorem blk1_5 (c : Dev nD) (t : Fin cfg1.N) (k q : Fin 256) :
    iblk1 V c 5 t (ix2 k q) = V c main_v27 (ix2 k q) := by
  have f := idx_facts1 t
  show V c main_v27 (((cfg1.win 5).blk t).view.emb (ix2 k q)) = V c main_v27 (ix2 k q)
  refine congrArg (V c main_v27) (funext fun a => Fin.ext ?_)
  match a with
  | ⟨0, _⟩ => show win1_5.index t (0 : Fin 2) * 256 + 1 * k.val = k.val; omega
  | ⟨1, _⟩ => show win1_5.index t (1 : Fin 2) * 256 + 1 * q.val = q.val; omega

/-- What point t writes back is block t of the layer's whole-array function of the arrays as the region finds them. -/
theorem flushed1_eq (c : Dev nD) (t : Fin cfg1.N) :
    (dat1 V c).flushed 6 t = ((cfg1.win 6).blk t).view.read (Elt Ideal)
      (combine false (V c main_v36) (V c main_v23) (V c main_v32) (V c main_v26) (V c main_arg6) (V c main_v27)) := by
  show (cfg1.win 6).cut (grid1.coords t) ((dat1 V c).after 6 t) = _
  rw [after1_6]
  unfold out1_6
  rw [View.canon_unit_zero hz2]
  simp only [View.ld_unit_zero (S := S2000x256) hz2, View.ld_unit_zero (S := S2000x1) hz2, View.ld_unit_zero (S := S256x256) hz2,
    View.ld_unit_zero (S := S256) hz1]
  have f := idx_facts1 t
  funext j
  obtain ⟨p, q, rfl⟩ : ∃ (p : Fin 2000) (q : Fin 256), j = ix2 p q := ⟨j 0, j 1, eq_ix2 j⟩
  have hlt : t.val < 25 := lt_of_lt_of_eq t.isLt N_1
  obtain ⟨r, hr⟩ : ∃ r : Fin 50000, r.val = t.val * 2000 + p.val := ⟨⟨t.val * 2000 + p.val, by have := p.isLt; omega⟩, rfl⟩
  have he : ((cfg1.win 6).blk t).view.emb (ix2 p q) = ix2 r q := funext fun a => Fin.ext (by
    match a with
    | ⟨0, _⟩ => show win1_6.index t (0 : Fin 2) * 2000 + 1 * p.val = r.val; omega
    | ⟨1, _⟩ => show win1_6.index t (1 : Fin 2) * 256 + 1 * q.val = q.val; omega)
  show k1_pay1 (iblk1 V c 1 t) (iblk1 V c 0 t) (iblk1 V c 2 t) (iblk1 V c 3 t) (iblk1 V c 5 t) (iblk1 V c 4 t) (ix2 p q)
    = combine false (V c main_v36) (V c main_v23) (V c main_v32) (V c main_v26) (V c main_arg6) (V c main_v27)
        (((cfg1.win 6).blk t).view.emb (ix2 p q))
  rw [he]
  refine (pay1_apply (iblk1 V c 1 t) (iblk1 V c 0 t) (iblk1 V c 2 t) (iblk1 V c 3 t) (iblk1 V c 5 t) (iblk1 V c 4 t) p q).trans ?_
  show cell false (iblk1 V c 0 t) (iblk1 V c 1 t) (iblk1 V c 2 t) (iblk1 V c 3 t) (iblk1 V c 4 t) (iblk1 V c 5 t) p q
    = cell false (V c main_v36) (V c main_v23) (V c main_v32) (V c main_v26) (V c main_arg6) (V c main_v27) r q
  exact cell_congr false q (fun k => blk1_0 V c t p k r hr) (blk1_1 V c t p r hr) (fun k => blk1_2 V c t p k r hr)
    (fun k => blk1_3 V c t k q) (blk1_4 V c t q) (fun k => blk1_5 V c t k q)

/-- A node's row is in point t's block iff it is one of the block's 2000 rows. -/
theorem mem_blk1 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v37).slice (win1_6.rect t)).set ↔ _
  rw [View.set_slice_whole, Rect.mem_set_unit]
  exact Iff.rfl

/-- Every element of the output array is in some point's block: row r is in block r / 2000. -/
theorem cover1 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := idx_onto1 ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- The output array after the region: the layer's whole-array function of the arrays as the region finds them. -/
theorem final1 (c : Dev nD) :
    (dat1 V c).arrAt 6 cfg1.N
      = combine false (V c main_v36) (V c main_v23) (V c main_v32) (V c main_v26) (V c main_arg6) (V c main_v27) :=
  (dat1 V c).arrAt_eq_of_cover 6 _ (fun t _ => flushed1_eq V c t) cover1

end Cert.KernelIdeal.Region

end
-- ==== Proof.KerSpec.lean ====
/-
  The stages of one mean-aggregation graph layer, as whole-array functions of the program's printed operations:
  an index wrapped once when negative; the rows of a feature matrix taken at a vector of node indices (rows at an
  index outside the matrix are a fill word); the rows summed per destination node; the per-node in-degree; and the
  dense combination  (sum / max(degree, 1)) · W_l + b + x · W_r  with an optional rectifier.
-/
import proofs.«136564_j80066780332145_2_alg».proof.KernelIdeal

noncomputable section

namespace Cert.KernelIdeal.Spec

open Idealize.ShloMosaic Cert.KernelIdeal Cert.KernelIdeal.Facts₀

variable {F : FTy → Type} [FloatOps F] [Facts]

/-- An index vector with `n` added where the index is negative (numpy's wrap-around of a negative index). -/
def wrapIdx (n : BitVec 32) (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 n))) i

/-- An index vector as a one-column matrix of start indices. -/
def idxCol (i : (⟨S800000, .i32⟩ : BufTy).Contents (Elt F)) : (⟨S800000x1, .i32⟩ : BufTy).Contents (Elt F) :=
  broadcastInDim S800000x1 ![0] bcast_S800000_S800000x1_0 i

/-- Per edge: is the (wrapped) node index inside [0, 49999]? -/
def inRange (i : (⟨S800000, .i32⟩ : BufTy).Contents (Elt F)) : (⟨S800000, .i1⟩ : BufTy).Contents (Elt F) :=
  Host.reduce IntOp.andi
    (andi (cmpi .sge (idxCol (F := F) (wrapIdx 50000#32 i)) (broadcastInDim S800000x1 ![] bcast_S_S800000x1 (constantI S_ 32 0#32)))
      (cmpi .sle (idxCol (F := F) (wrapIdx 50000#32 i))
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The rows of `x` at the node indices `i`, one row per edge; a row whose index is out of range is the fill word. -/
def takeFn (x : (⟨S50000x256, .f32⟩ : BufTy).Contents (Elt F)) (i : (⟨S800000, .i32⟩ : BufTy).Contents (Elt F)) :
    (⟨S800000x256, .f32⟩ : BufTy).Contents (Elt F) :=
  select (broadcastInDim S800000x256 ![0] bcast_S800000_S800000x256_0 (inRange (F := F) i))
    (Host.gather gather_S50000x256_S800000x1_S800000x256_1_0_n_n_0_1_1256 x (idxCol (F := F) (wrapIdx 50000#32 i)))
    (broadcastInDim S800000x256 ![] bcast_S_S800000x256 (constant S_ .f32 0x7FC00000#32))

/-- Per destination node, the sum of the rows of `x` taken at the source nodes of the edges that end there. -/
def aggFn (x : (⟨S50000x256, .f32⟩ : BufTy).Contents (Elt F)) (src dst : (⟨S800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (idxCol (F := F) dst) (takeFn x src)

/-- Per destination node, the number of edges that end there. -/
def degFn (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (idxCol (F := F) dst)
    (broadcastInDim S800000 ![] bcast_S_S800000 (constant S_ .f32 0x3F800000#32))

/-- Row 0 and row 1 of the edge list: the source and the destination node of every edge. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000
def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The stable argsort of the destination nodes: the second result of sorting (destination, position) pairs. -/
def permOf (dst : (⟨S800000, .i32⟩ : BufTy).Contents (Elt F)) : (⟨S800000, .i32⟩ : BufTy).Contents (Elt F) :=
  (Host.sort2 S800000 0 comparator_i32_i32_d0 dst (iotaInDim S800000 32 0)).2

/-- A vector of node indices re-read in the sorted order of the edges. -/
def sortedBy (dst v : (⟨S800000, .i32⟩ : BufTy).Contents (Elt F)) : (⟨S800000, .i32⟩ : BufTy).Contents (Elt F) :=
  Host.gather gather_S800000_S800000x1_S800000_n_0_n_n_0_1_1 v (idxCol (F := F) (wrapIdx 800000#32 (permOf (F := F) dst)))

/-- The per-node degree as a one-column matrix. -/
def degCol (d : (⟨S50000, .f32⟩ : BufTy).Contents (Elt F)) : (⟨S50000x1, .f32⟩ : BufTy).Contents (Elt F) :=
  broadcastInDim S50000x1 ![0] bcast_S50000_S50000x1_0 d

end Cert.KernelIdeal.Spec

end
-- ==== Proof.KerHost.lean ====
/-
  What the host operations around the two pipelined regions leave in the buffers the regions read.

  Before the first region: the two rows of the edge list, re-read in the stable sorted order of the destination
  nodes; the per-node sums of the rows of x taken at the (sorted) source nodes; the per-node in-degree as a column;
  the four weight matrices narrowed to sixteen bits. Between the regions: the same sums over the rows of the first
  region's output. Each buffer is read back through the fold of the operations that precede it; a buffer no
  operation and no region writes in between keeps its contents.
-/
import proofs.«136564_j80066780332145_2_alg».proof.Proof.Gen.KernelIdeal.Frame
import proofs.«136564_j80066780332145_2_alg».proof.Proof.KerSpec
import Idealize.ShloMosaic.Lib.StableHlo.Run
import Idealize.ShloMosaic.PureOps.Ideal

set_option maxRecDepth 16384

noncomputable section

namespace Cert.KernelIdeal.Host

open Cert.KernelIdeal Cert.KernelIdeal.Gen Cert.KernelIdeal.Spec Cert.KernelIdeal.Facts₀
open Idealize.ShloMosaic Idealize.ShloMosaic.TcCoe Idealize.SL.Sem Idealize.ShloMosaic.StableHlo

variable (m : (ℓ : Loc nD τ sig) → Buf (Elt Ideal) ℓ) (ρ : Dev nD → PrngReg)

/-- The fold of a literal line of host operations read back at a literal buffer, through the typed references of the
    outlined functions (their transports are along equations that hold by reflexivity). -/
local macro "read_fold" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      cast_eq]))

attribute [local irreducible] Host.sort2 Host.gather Host.scatterAdd Host.reduce

/-- The source row of the edge list. -/
abbrev srcA (c : Dev nD) := srcOf (F := Ideal) (m ((c.tc : Thread nD τ).loc main_arg1))
/-- The destination row of the edge list. -/
abbrev dstA (c : Dev nD) := dstOf (F := Ideal) (m ((c.tc : Thread nD τ).loc main_arg1))

theorem W5_v11 (c : Dev nD) :
    W5 m ρ c (Proc.devRef .tc main_v11) = sortedBy (F := Ideal) (dstA m c) (dstA m c) := by
  read_fold <;> rfl

theorem W5_v18 (c : Dev nD) :
    W5 m ρ c (Proc.devRef .tc main_v18) = sortedBy (F := Ideal) (dstA m c) (srcA m c) := by
  read_fold <;> rfl

/-! ## The first region's operands -/

theorem W5_v31 (c : Dev nD) :
    W5 m ρ c (Proc.devRef .tc main_v31)
      = aggFn (F := Ideal) (m ((c.tc : Thread nD τ).loc main_arg0)) (sortedBy (F := Ideal) (dstA m c) (srcA m c))
          (sortedBy (F := Ideal) (dstA m c) (dstA m c)) := by
  read_fold <;> rfl

theorem W5_v23 (c : Dev nD) :
    W5 m ρ c (Proc.devRef .tc main_v23) = degCol (F := Ideal) (degFn (F := Ideal) (sortedBy (F := Ideal) (dstA m c) (dstA m c))) := by
  read_fold <;> rfl

theorem W5_arg0 (c : Dev nD) : W5 m ρ c (Proc.devRef .tc main_arg0) = m ((c.tc : Thread nD τ).loc main_arg0) := by
  read_fold

theorem W5_arg3 (c : Dev nD) : W5 m ρ c (Proc.devRef .tc main_arg3) = m ((c.tc : Thread nD τ).loc main_arg3) := by
  read_fold

theorem W5_arg6 (c : Dev nD) : W5 m ρ c (Proc.devRef .tc main_arg6) = m ((c.tc : Thread nD τ).loc main_arg6) := by
  read_fold

theorem W5_v24 (c : Dev nD) :
    W5 m ρ c (Proc.devRef .tc main_v24) = (truncf .bf16 (m ((c.tc : Thread nD τ).loc main_arg2) : FVec Ideal S256x256 .f32) Facts₀.bitsLt_bf16_f32 : FVec Ideal S256x256 .bf16) := by
  read_fold <;> rfl

theorem W5_v25 (c : Dev nD) :
    W5 m ρ c (Proc.devRef .tc main_v25) = (truncf .bf16 (m ((c.tc : Thread nD τ).loc main_arg4) : FVec Ideal S256x256 .f32) Facts₀.bitsLt_bf16_f32 : FVec Ideal S256x256 .bf16) := by
  read_fold <;> rfl

theorem W5_v26 (c : Dev nD) :
    W5 m ρ c (Proc.devRef .tc main_v26) = (truncf .bf16 (m ((c.tc : Thread nD τ).loc main_arg5) : FVec Ideal S256x256 .f32) Facts₀.bitsLt_bf16_f32 : FVec Ideal S256x256 .bf16) := by
  read_fold <;> rfl

theorem W5_v27 (c : Dev nD) :
    W5 m ρ c (Proc.devRef .tc main_v27) = (truncf .bf16 (m ((c.tc : Thread nD τ).loc main_arg7) : FVec Ideal S256x256 .f32) Facts₀.bitsLt_bf16_f32 : FVec Ideal S256x256 .bf16) := by
  read_fold <;> rfl

/-! ## Across the first region: only its output array changes -/

theorem W6_v11 (c : Dev nD) : W6 m ρ c (Proc.devRef .tc main_v11) = W5 m ρ c (Proc.devRef .tc main_v11) :=
  W6_of_ne m ρ c main_v11 (by decide)
theorem W6_v18 (c : Dev nD) : W6 m ρ c (Proc.devRef .tc main_v18) = W5 m ρ c (Proc.devRef .tc main_v18) :=
  W6_of_ne m ρ c main_v18 (by decide)
theorem W6_v26 (c : Dev nD) : W6 m ρ c (Proc.devRef .tc main_v26) = W5 m ρ c (Proc.devRef .tc main_v26) :=
  W6_of_ne m ρ c main_v26 (by decide)
theorem W6_v27 (c : Dev nD) : W6 m ρ c (Proc.devRef .tc main_v27) = W5 m ρ c (Proc.devRef .tc main_v27) :=
  W6_of_ne m ρ c main_v27 (by decide)
theorem W6_arg6 (c : Dev nD) : W6 m ρ c (Proc.devRef .tc main_arg6) = W5 m ρ c (Proc.devRef .tc main_arg6) :=
  W6_of_ne m ρ c main_arg6 (by decide)
/-- The degree column is an input window of the first region: it is left as found. -/
theorem W6_v23 (c : Dev nD) : W6 m ρ c (Proc.devRef .tc main_v23) = W5 m ρ c (Proc.devRef .tc main_v23) :=
  (W6_arr m ρ c 1).trans (((dat0 (V5 m ρ) c).arrAt_in 1 rfl _).trans (A_eq0 (V5 m ρ) c 1))
/-- The first region's output array holds what its write-backs fold to. -/
theorem W6_v32 (c : Dev nD) : W6 m ρ c (Proc.devRef .tc main_v32) = (dat0 (V5 m ρ) c).arrAt 6 cfg0.N :=
  W6_arr m ρ c 6

/-! ## The second region's operands -/

theorem W8_v36 (c : Dev nD) :
    W8 m ρ c (Proc.devRef .tc main_v36)
      = aggFn (F := Ideal) (W6 m ρ c (Proc.devRef .tc main_v32)) (W6 m ρ c (Proc.devRef .tc main_v18))
          (W6 m ρ c (Proc.devRef .tc main_v11)) := by
  read_fold <;> rfl

theorem W8_v23 (c : Dev nD) : W8 m ρ c (Proc.devRef .tc main_v23) = W6 m ρ c (Proc.devRef .tc main_v23) := by
  read_fold
theorem W8_v32 (c : Dev nD) : W8 m ρ c (Proc.devRef .tc main_v32) = W6 m ρ c (Proc.devRef .tc main_v32) := by
  read_fold
theorem W8_v26 (c : Dev nD) : W8 m ρ c (Proc.devRef .tc main_v26) = W6 m ρ c (Proc.devRef .tc main_v26) := by
  read_fold
theorem W8_v27 (c : Dev nD) : W8 m ρ c (Proc.devRef .tc main_v27) = W6 m ρ c (Proc.devRef .tc main_v27) := by
  read_fold
theorem W8_arg6 (c : Dev nD) : W8 m ρ c (Proc.devRef .tc main_arg6) = W6 m ρ c (Proc.devRef .tc main_arg6) := by
  read_fold

end Cert.KernelIdeal.Host

end
-- ==== Proof.KerOut.lean ====
/-
  The idealized kernel program's result as one function of its arguments: two layers, each the dense combination
  of the per-node sums of neighbour rows (over the edges in sorted order), the degree column, the layer's input and
  the layer's narrowed weights; the first rectified and fed to the second.
-/
import proofs.«136564_j80066780332145_2_alg».proof.Proof.KerRegion
import proofs.«136564_j80066780332145_2_alg».proof.Proof.KerHost

set_option maxRecDepth 16384

noncomputable section

namespace Cert.KernelIdeal.Out

open Cert.KernelIdeal Cert.KernelIdeal.Gen Cert.KernelIdeal.Spec Cert.KernelIdeal.Dense Cert.KernelIdeal.Host Cert.KernelIdeal.Facts₀
open Idealize.ShloMosaic Idealize.ShloMosaic.TcCoe Idealize.SL.Sem

variable (m : (ℓ : Loc nD τ sig) → Buf (Elt Ideal) ℓ) (ρ : Dev nD → PrngReg)

/-- One layer as the kernel program computes it, over given source and destination rows of the edge list. -/
def layerK (relu : Bool) (x : S50000x256.Idx → EReal) (src dst : (⟨S800000, .i32⟩ : BufTy).Contents (Elt Ideal))
    (wl : FVec Ideal S256x256 .f32) (b : S256.Idx → EReal) (wr : FVec Ideal S256x256 .f32) : S50000x256.Idx → EReal :=
  combine relu (aggFn (F := Ideal) x src dst) (degCol (F := Ideal) (degFn (F := Ideal) dst)) x
    (truncf .bf16 wl Facts₀.bitsLt_bf16_f32) b (truncf .bf16 wr Facts₀.bitsLt_bf16_f32)

theorem combine_congr (relu : Bool) {S S' x x' : S50000x256.Idx → EReal} {D D' : S50000x1.Idx → EReal}
    {wl wl' wr wr' : S256x256.Idx → EReal} {b b' : S256.Idx → EReal}
    (hS : S = S') (hD : D = D') (hx : x = x') (hwl : wl = wl') (hb : b = b') (hwr : wr = wr') :
    combine relu S D x wl b wr = combine relu S' D' x' wl' b' wr' := by
  subst hS hD hx hwl hb hwr; rfl

/-- The edge list's rows in the sorted order of the destinations. -/
abbrev srcS (c : Dev nD) := sortedBy (F := Ideal) (dstA m c) (srcA m c)
abbrev dstS (c : Dev nD) := sortedBy (F := Ideal) (dstA m c) (dstA m c)

/-- The first region's output array: the rectified layer of the first argument. -/
theorem hidden_eq (c : Dev nD) :
    W6 m ρ c (Proc.devRef .tc main_v32)
      = layerK true (m ((c.tc : Thread nD τ).loc main_arg0)) (srcS m c) (dstS m c)
          (m ((c.tc : Thread nD τ).loc main_arg2)) (m ((c.tc : Thread nD τ).loc main_arg3)) (m ((c.tc : Thread nD τ).loc main_arg4)) :=
  (W6_v32 m ρ c).trans ((Region.final0 (V5 m ρ) c).trans
    (combine_congr true (W5_v31 m ρ c) (W5_v23 m ρ c) (W5_arg0 m ρ c) (W5_v24 m ρ c) (W5_arg3 m ρ c) (W5_v25 m ρ c)))

/-- The result array: the plain layer of the first region's output. -/
theorem result_eq (c : Dev nD) :
    W9 m ρ c (Proc.devRef .tc main_v37)
      = layerK false
          (layerK true (m ((c.tc : Thread nD τ).loc main_arg0)) (srcS m c) (dstS m c)
            (m ((c.tc : Thread nD τ).loc main_arg2)) (m ((c.tc : Thread nD τ).loc main_arg3)) (m ((c.tc : Thread nD τ).loc main_arg4)))
          (srcS m c) (dstS m c)
          (m ((c.tc : Thread nD τ).loc main_arg5)) (m ((c.tc : Thread nD τ).loc main_arg6)) (m ((c.tc : Thread nD τ).loc main_arg7)) := by
  refine (W9_arr m ρ c 6).trans ((Region.final1 (V8 m ρ) c).trans ?_)
  have h36 : W8 m ρ c (Proc.devRef .tc main_v36)
      = aggFn (F := Ideal) (layerK true (m ((c.tc : Thread nD τ).loc main_arg0)) (srcS m c) (dstS m c)
            (m ((c.tc : Thread nD τ).loc main_arg2)) (m ((c.tc : Thread nD τ).loc main_arg3)) (m ((c.tc : Thread nD τ).loc main_arg4)))
          (srcS m c) (dstS m c) := by
    rw [W8_v36, hidden_eq, W6_v18, W6_v11, W5_v18, W5_v11]
  have h23 : W8 m ρ c (Proc.devRef .tc main_v23) = degCol (F := Ideal) (degFn (F := Ideal) (dstS m c)) := by
    rw [W8_v23, W6_v23, W5_v23]
  have h32 : W8 m ρ c (Proc.devRef .tc main_v32) = layerK true (m ((c.tc : Thread nD τ).loc main_arg0)) (srcS m c) (dstS m c)
            (m ((c.tc : Thread nD τ).loc main_arg2)) (m ((c.tc : Thread nD τ).loc main_arg3)) (m ((c.tc : Thread nD τ).loc main_arg4)) := by
    rw [W8_v32, hidden_eq]
  have h26 : W8 m ρ c (Proc.devRef .tc main_v26) = (truncf .bf16 (m ((c.tc : Thread nD τ).loc main_arg5) : FVec Ideal S256x256 .f32) Facts₀.bitsLt_bf16_f32 : FVec Ideal S256x256 .bf16) := by
    rw [W8_v26, W6_v26, W5_v26]
  have h27 : W8 m ρ c (Proc.devRef .tc main_v27) = (truncf .bf16 (m ((c.tc : Thread nD τ).loc main_arg7) : FVec Ideal S256x256 .f32) Facts₀.bitsLt_bf16_f32 : FVec Ideal S256x256 .bf16) := by
    rw [W8_v27, W6_v27, W5_v27]
  have h6 : W8 m ρ c (Proc.devRef .tc main_arg6) = m ((c.tc : Thread nD τ).loc main_arg6) := by
    rw [W8_arg6, W6_arg6, W5_arg6]
  exact combine_congr false h36 h23 h32 h26 h6 h27

end Cert.KernelIdeal.Out

end
-- ==== Proof.LibEdges.lean ====
/-
  Edge lists read through a permutation. The dimension numbers of the four index operations of a gather–scatter
  layer over an edge list with a one-column matrix of node indices (a rank-1 gather, a row gather, a row scatter
  with an addition body and a rank-1 one), each with what the operation computes at an index; the second result of
  a two-operand sort of a rank-1 array as its second operand read through one bijection of the positions; a
  reduction over a unit axis; and THE fact the file is for: an accumulating scatter does not depend on the order
  of its updates (the scatter indices and the updates re-read through one bijection of the edges).
-/
import Idealize.ShloMosaic.PureOps.Ideal.Laws
import Idealize.ShloMosaic.PureOps.Reduce
import Idealize.ShloMosaic.Lib.ValueIdx
import Idealize.ShloMosaic.Lib.SortFacts

noncomputable section

open scoped BigOperators

namespace Cert.Lib.Edges

open Idealize.ShloMosaic Idealize.ShloMosaic.ValueIdx

/-! ## Gathers at a one-column matrix of start indices -/

section Gather
variable {α : Type}

/-- The dimension numbers of `v[idx]` for a vector `v : [N]` at start indices `idx : [E, 1]` (the index vector
    along axis 1), result `[E]`. -/
abbrev colGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- That gather at `e`: the vector at the start index `idx[e, 0]`, read signed and clamped into `[0, N − 1]`. -/
theorem gather_col_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (colGatherDims N E wf) v idx (ix1 e)
      = v (ix1 ⟨min (idx (ix2 e (0 : Fin 1))).toInt.toNat (N - 1), by omega⟩) := by
  unfold Host.gather
  congr 1
  funext a
  obtain rfl : a = 0 := Subsingleton.elim _ _
  refine Fin.ext ?_
  show (colGatherDims N E wf).start (ix1 e) idx 0 + (colGatherDims N E wf).batchCoord (ix1 e) 0
    + (colGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colGatherDims N E wf).startIndexMap from List.mem_singleton.mpr rfl)]
  have hsi : (colGatherDims N E wf).siIdx (ix1 e) ⟨List.idxOf (0 : Fin 1) (colGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` (rows) for a matrix `x : [N, C]` at start indices `idx : [E, 1]`, result
    `[E, C]`: whole rows, the row's axis collapsed. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- That gather at `(e, c)`: column `c` of the row at the start index `idx[e, 0]`, read signed and clamped into
    `[0, N − 1]`. -/
theorem gather_row_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e (0 : Fin 1))).toInt.toNat (N - 1), by omega⟩ c) := by
  have h0 : ((rowGatherDims N C E wf).operandIdx (ix2 e c) idx (0 : Fin 2)).val
      = min (idx (ix2 e (0 : Fin 1))).toInt.toNat (N - 1) := by
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGatherDims N C E wf).operandIdx (ix2 e c) idx (1 : Fin 2)).val = c.val := by
    show (rowGatherDims N C E wf).start (ix2 e c) idx 1 + (rowGatherDims N C E wf).batchCoord (ix2 e c) 1
      + (rowGatherDims N C E wf).offCoord (ix2 e c) 1 = _
    rw [GatherDims.batchCoord_eq_zero _ _ _ List.not_mem_nil]
    have hs : (rowGatherDims N C E wf).start (ix2 e c) idx (1 : Fin 2) = 0 := by
      unfold GatherDims.start
      rw [dif_neg (fun h => absurd (congrArg Fin.val (List.mem_singleton.mp h)) Nat.one_ne_zero)]
    rw [hs]
    have hk : (1 : Fin 2) ∈ (rowGatherDims N C E wf).sKept :=
      (GatherDims.mem_sKept _ _).mpr ⟨fun h => absurd (congrArg Fin.val (List.mem_singleton.mp h)) Nat.one_ne_zero, List.not_mem_nil⟩
    unfold GatherDims.offCoord
    rw [dif_pos hk]
    simp only [Nat.zero_add]
    rfl
  unfold Host.gather
  congr 1
  funext a
  refine Fin.ext ?_
  match a with
  | ⟨0, _⟩ => exact h0
  | ⟨1, _⟩ => exact h1

end Gather

/-! ## An accumulating scatter does not depend on the order of its updates -/

section Scatter
variable {s si su : Shape}

/-- A window's start depends on the scatter indices only where the update reads them. -/
theorem ScatterDims.start_congr (d : ScatterDims s si su) {w : Nat} (j j' : su.Idx) (idx idx' : IVec si w)
    (h : ∀ c, idx (d.siIdx j c) = idx' (d.siIdx j' c)) : d.start j idx = d.start j' idx' := by
  funext a
  unfold ScatterDims.start
  split
  · rw [h]
  · rfl

/-- A window coordinate depends on the update index only through its coordinates on the window axes. -/
theorem ScatterDims.window_congr (d : ScatterDims s si su) (j j' : su.Idx)
    (h : ∀ k ∈ d.updateWindowDims, (j k).val = (j' k).val) : d.window j = d.window j' := by
  funext a
  unfold ScatterDims.window
  split
  · exact h _ (List.getElem_mem _)
  · rfl

/-- The operand index at start `st` plus window coordinate `wd`, when that is inside the operand on every axis. -/
def landing (s : Shape) (st : Fin s.rank → Int) (wd : Fin s.rank → Nat) : Option s.Idx :=
  if h : ∀ a, 0 ≤ st a + wd a ∧ st a + wd a < s.size a then
    some fun a => ⟨(st a + wd a).toNat, by have := h a; omega⟩
  else none

/-- The element an update lands at is a function of its window's starts and window coordinates. -/
theorem ScatterDims.resultIdx?_eq_landing (d : ScatterDims s si su) {w : Nat} (j : su.Idx) (idx : IVec si w) :
    d.resultIdx? j idx = landing s (d.start j idx) (d.window j) := rfl

/-- … hence two updates with the same starts and window coordinates land at the same element. -/
theorem ScatterDims.resultIdx?_congr (d : ScatterDims s si su) {w : Nat} (j j' : su.Idx) (idx idx' : IVec si w)
    (hs : d.start j idx = d.start j' idx') (hw : d.window j = d.window j') :
    d.resultIdx? j idx = d.resultIdx? j' idx' := by
  rw [ScatterDims.resultIdx?_eq_landing d, ScatterDims.resultIdx?_eq_landing d, hs, hw]

/-- THE ORDER OF THE UPDATES IS IMMATERIAL: at the ideal instance an accumulating scatter whose updates are re-read
    through a bijection `τ` of the update indices, at scatter indices `idx'` under which update `j` lands where update
    `τ j` lands under `idx`, is the scatter of the updates at `idx` (the same finite sum, re-indexed). -/
theorem hostScatterAdd_reindex (d : ScatterDims s si su) {w : Nat} (x : s.Idx → EReal) (idx idx' : IVec si w)
    (upd : su.Idx → EReal) (τ : su.Idx ≃ su.Idx) (h : ∀ j, d.resultIdx? (τ j) idx = d.resultIdx? j idx') :
    Ideal.hostScatterAdd d x idx' (fun j => upd (τ j)) = Ideal.hostScatterAdd d x idx upd := by
  funext i
  unfold Ideal.hostScatterAdd
  congr 1
  rw [Finset.sum_filter, Finset.sum_filter,
    ← Equiv.sum_comp τ (fun j => if d.resultIdx? j idx = some i then upd j else 0)]
  refine Finset.sum_congr rfl fun j _ => ?_
  simp only [h j]

/-- The dimension numbers of `x.at[idx].add(upd)` (rows) for a matrix `x : [N, C]`, scatter indices `idx : [E, 1]`
    (the index vector along axis 1) and updates `upd : [E, C]`: update row `e` is added to row `idx[e, 0]`. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, c)` of the row scatter reads its start index at `[e, 0]`. -/
theorem rowScatter_siIdx {N C E : Nat} (wf : ScatterDims.WF ⟨2, ![N, C]⟩ ⟨2, ![E, 1]⟩ ⟨2, ![E, C]⟩ [1] [0] [0] 1)
    (e : Fin E) (c : Fin C) (k : Fin (rowScatterDims N C E wf).scatterDimsToOperandDims.length) :
    (rowScatterDims N C E wf).siIdx (ix2 e c) k = ix2 e (0 : Fin 1) := by
  funext b; refine Fin.ext ?_
  match b with
  | ⟨0, _⟩ => rfl
  | ⟨1, _⟩ => exact Nat.lt_one_iff.mp k.isLt

/-- The rows of a rank-2 index set re-indexed by a bijection of the rows. -/
def rowsEquiv {E C : Nat} (σ : Fin E ≃ Fin E) : (⟨2, ![E, C]⟩ : Shape).Idx ≃ (⟨2, ![E, C]⟩ : Shape).Idx :=
  idxEquiv2.trans ((Equiv.prodCongr σ (Equiv.refl _)).trans idxEquiv2.symm)

/-- It sends `(e, c)` to `(σ e, c)`. -/
theorem rowsEquiv_apply {E C : Nat} (σ : Fin E ≃ Fin E) (j : (⟨2, ![E, C]⟩ : Shape).Idx) :
    rowsEquiv σ j = ix2 (σ (j 0)) (j 1) := rfl

/-- THE ROW SCATTER DOES NOT DEPEND ON THE ORDER OF THE EDGES: scatter indices `idx'` and updates `upd'` that are
    `idx` and `upd` with the edges re-read through a bijection `σ` give the same sums. -/
theorem hostScatterAdd_rows_reindex {N C E w : Nat}
    (wf : ScatterDims.WF ⟨2, ![N, C]⟩ ⟨2, ![E, 1]⟩ ⟨2, ![E, C]⟩ [1] [0] [0] 1)
    (x : (⟨2, ![N, C]⟩ : Shape).Idx → EReal) (idx idx' : IVec ⟨2, ![E, 1]⟩ w)
    (upd upd' : (⟨2, ![E, C]⟩ : Shape).Idx → EReal) (σ : Fin E → Fin E) (hσ : Function.Bijective σ)
    (hidx : ∀ e, idx' (ix2 e (0 : Fin 1)) = idx (ix2 (σ e) (0 : Fin 1)))
    (hupd : ∀ e c, upd' (ix2 e c) = upd (ix2 (σ e) c)) :
    Ideal.hostScatterAdd (rowScatterDims N C E wf) x idx' upd'
      = Ideal.hostScatterAdd (rowScatterDims N C E wf) x idx upd := by
  have hu : upd' = fun j => upd (rowsEquiv (Equiv.ofBijective σ hσ) j) := by
    funext j
    obtain ⟨e, c, rfl⟩ : ∃ e c, j = ix2 e c := ⟨j 0, j 1, eq_ix2 j⟩
    exact hupd e c
  rw [hu]
  refine hostScatterAdd_reindex _ x idx idx' upd _ fun j => ?_
  obtain ⟨e, c, rfl⟩ : ∃ e c, j = ix2 e c := ⟨j 0, j 1, eq_ix2 j⟩
  show (rowScatterDims N C E wf).resultIdx? (ix2 (σ e) c) idx = (rowScatterDims N C E wf).resultIdx? (ix2 e c) idx'
  refine ScatterDims.resultIdx?_congr _ _ _ _ _ (ScatterDims.start_congr _ _ _ _ _ fun k => ?_)
    (ScatterDims.window_congr _ _ _ fun k hk => ?_)
  · rw [rowScatter_siIdx, rowScatter_siIdx]; exact (hidx e).symm
  · obtain rfl := List.mem_singleton.mp hk; rfl

/-- The dimension numbers of `x.at[idx].add(upd)` for a vector `x : [N]`, scatter indices `idx : [E, 1]` and updates
    `upd : [E]`: update `e` is added to element `idx[e, 0]`. -/
abbrev colScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` of the rank-1 scatter reads its start index at `[e, 0]`. -/
theorem colScatter_siIdx {N E : Nat} (wf : ScatterDims.WF ⟨1, ![N]⟩ ⟨2, ![E, 1]⟩ ⟨1, ![E]⟩ [] [0] [0] 1)
    (e : Fin E) (k : Fin (colScatterDims N E wf).scatterDimsToOperandDims.length) :
    (colScatterDims N E wf).siIdx (ix1 e) k = ix2 e (0 : Fin 1) := by
  funext b; refine Fin.ext ?_
  match b with
  | ⟨0, _⟩ => rfl
  | ⟨1, _⟩ => exact Nat.lt_one_iff.mp k.isLt

/-- A rank-1 index set is its coordinate's range. -/
def idxEquiv1 {n : Nat} : (⟨1, ![n]⟩ : Shape).Idx ≃ Fin n where
  toFun i := i 0
  invFun k := ix1 k
  left_inv i := (eq_ix1 i).symm
  right_inv _ := rfl

/-- THE RANK-1 SCATTER DOES NOT DEPEND ON THE ORDER OF THE EDGES. -/
theorem hostScatterAdd_col_reindex {N E w : Nat}
    (wf : ScatterDims.WF ⟨1, ![N]⟩ ⟨2, ![E, 1]⟩ ⟨1, ![E]⟩ [] [0] [0] 1)
    (x : (⟨1, ![N]⟩ : Shape).Idx → EReal) (idx idx' : IVec ⟨2, ![E, 1]⟩ w)
    (upd upd' : (⟨1, ![E]⟩ : Shape).Idx → EReal) (σ : Fin E → Fin E) (hσ : Function.Bijective σ)
    (hidx : ∀ e, idx' (ix2 e (0 : Fin 1)) = idx (ix2 (σ e) (0 : Fin 1)))
    (hupd : ∀ e, upd' (ix1 e) = upd (ix1 (σ e))) :
    Ideal.hostScatterAdd (colScatterDims N E wf) x idx' upd'
      = Ideal.hostScatterAdd (colScatterDims N E wf) x idx upd := by
  have hu : upd' = fun j => upd ((idxEquiv1.trans ((Equiv.ofBijective σ hσ).trans idxEquiv1.symm)) j) := by
    funext j
    obtain ⟨e, rfl⟩ : ∃ e, j = ix1 e := ⟨j 0, eq_ix1 j⟩
    exact hupd e
  rw [hu]
  refine hostScatterAdd_reindex _ x idx idx' upd _ fun j => ?_
  obtain ⟨e, rfl⟩ : ∃ e, j = ix1 e := ⟨j 0, eq_ix1 j⟩
  show (colScatterDims N E wf).resultIdx? (ix1 (σ e)) idx = _
  refine ScatterDims.resultIdx?_congr _ _ _ _ _ (ScatterDims.start_congr _ _ _ _ _ fun k => ?_)
    (ScatterDims.window_congr _ _ _ fun k hk => ?_)
  · rw [colScatter_siIdx, colScatter_siIdx]; exact (hidx e).symm
  · exact absurd hk List.not_mem_nil

end Scatter

/-! ## The second result of a two-operand sort of a rank-1 array -/

section SortTwo

/-- The rank-1 index at coordinate `k`, in this file's spelling. -/
theorem ofFin_eq_ix1 {n : Nat} (k : Fin n) : Shape.Idx.ofFin k = ix1 k := by
  funext d; match d with | ⟨0, _⟩ => exact Fin.ext rfl

/-- On a rank-1 shape a two-operand sort along axis 0 reads BOTH operands through one self-map of the positions,
    `sortedFrom` of the comparator on the pairs of their words; its second result is the second operand through it. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- … so it is the second operand re-read through a BIJECTION of the positions. -/
theorem sort2_rank1_snd_perm {n : Nat} {α β : Type} (cmp : α × β → α × β → BitVec 1)
    (x : (⟨1, ![n]⟩ : Shape).Idx → α) (y : (⟨1, ![n]⟩ : Shape).Idx → β) :
    ∃ σ : Fin n → Fin n, Function.Bijective σ ∧ ∀ k : Fin n, (Host.sort2 ⟨1, ![n]⟩ 0 cmp x y).2 (ix1 k) = y (ix1 (σ k)) := by
  refine ⟨sortedFrom (fun k k' => cmp (x (Shape.Idx.ofFin k), y (Shape.Idx.ofFin k))
      (x (Shape.Idx.ofFin k'), y (Shape.Idx.ofFin k')) == 1#1), ⟨sortedFrom_injective _, sortedFrom_surjective _⟩, fun k => ?_⟩
  rw [sort2_rank1_snd, ofFin_eq_ix1]
  rfl

end SortTwo

/-! ## A reduction over a unit axis -/

section UnitReduce
variable {α : Type}

/-- A one-operand `stablehlo.reduce` of an `[E, 1]` array over its unit axis, body commutative and associative:
    at `e` the body applied to the one element `(e, 0)` and the initial value. -/
theorem reduce_unitCol_apply {E : Nat} {u : Shape} (f : α → α → α) [Std.Commutative f] [Std.Associative f]
    (x : (⟨2, ![E, 1]⟩ : Shape).Idx → α) (init : u.Idx → α)
    (h' : (⟨2, ![E, 1]⟩ : Shape).ReducesTo [1] ⟨1, ![E]⟩) (hu : 0 < u.numel) (e : Fin E) :
    Host.reduce f x init h' hu (ix1 e) = f (x (ix2 e (0 : Fin 1))) (init (Shape.Idx.first hu)) := by
  have h : (⟨2, ![E, 1]⟩ : Shape).Reduces [1] ⟨1, ![E]⟩ := ⟨h'.1, Nat.one_pos, h'.2⟩
  rw [Host.reduce_eq_fold_single f x init h' h hu (ix1 e)]
  have hl : h.lift (ix1 e) (0 : Fin 1) = ix2 e (0 : Fin 1) := by
    funext c; refine Fin.ext ?_
    match c with
    | ⟨0, _⟩ => rfl
    | ⟨1, _⟩ => rfl
  have key : ∀ (b : α) (g : Fin 1 → α), (Finset.univ : Finset (Fin 1)).fold f b g = f (g 0) b := by
    intro b g
    rw [show (Finset.univ : Finset (Fin 1)) = {0} from rfl, Finset.fold_singleton]
  exact (key _ (x ∘ h.lift (ix1 e))).trans (by show f (x (h.lift (ix1 e) (0 : Fin 1))) _ = _; rw [hl])

end UnitReduce

end Cert.Lib.Edges

end
-- ==== Proof.KerEdges.lean ====
/-
  The order of the edges is immaterial to a mean-aggregation layer's two per-node sums. An index vector re-read in
  the sorted order of the edges (`sortedBy`) is the vector read through a bijection of the edges; the rows taken at
  an index vector depend, at each edge, on that edge's index only; and an accumulating scatter does not depend on
  the order of its updates. Hence the per-node sum of the taken rows and the per-node degree computed over the
  sorted edge list are those computed over the edge list as given.
-/
import proofs.«136564_j80066780332145_2_alg».proof.Proof.KerSpec
import proofs.«136564_j80066780332145_2_alg».proof.Proof.LibEdges

noncomputable section

namespace Cert.KernelIdeal.Spec

open Idealize.ShloMosaic Idealize.ShloMosaic.ValueIdx Cert.Lib.Edges Cert.KernelIdeal Cert.KernelIdeal.Facts₀

variable [Facts]

/-- The wrap of one index word: `n` added when the word is negative. -/
def wrapWord (n b : BitVec 32) : BitVec 32 := Scalar.select (IntOp.cmpi .slt b 0#32) (IntOp.addi b n) b

/-- The wrapped index vector at an edge is the wrap of the vector's word there. -/
theorem wrapIdx_apply (n : BitVec 32) (i : (⟨S800000, .i32⟩ : BufTy).Contents (Elt Ideal)) (j : S800000.Idx) :
    wrapIdx (F := Ideal) n i j = wrapWord n (i j) := rfl

/-- The one-column matrix of an index vector at `(e, 0)` is the vector at `e`. -/
theorem idxCol_apply (i : (⟨S800000, .i32⟩ : BufTy).Contents (Elt Ideal)) (e : Fin 800000) :
    idxCol (F := Ideal) i (ix2 e (0 : Fin 1)) = i (ix1 e) := by
  unfold idxCol broadcastInDim
  congr 1
  funext a
  match a with
  | ⟨0, _⟩ => rfl

/-- A broadcast of a per-edge vector along the rows of the `[800000, 256]` matrix reads the vector at the edge. -/
theorem bcastRows_apply {α : Type} (r : S800000.Idx → α) (e : Fin 800000) (c : Fin 256) :
    broadcastInDim S800000x256 ![0] bcast_S800000_S800000x256_0 r (ix2 e c) = r (ix1 e) := by
  unfold broadcastInDim
  congr 1
  funext a
  match a with
  | ⟨0, _⟩ => rfl

/-- Whether an edge's node index is in range depends on the index vector at that edge only. -/
theorem inRange_congr (i i' : (⟨S800000, .i32⟩ : BufTy).Contents (Elt Ideal)) (e e' : Fin 800000)
    (h : i (ix1 e) = i' (ix1 e')) : inRange (F := Ideal) i (ix1 e) = inRange (F := Ideal) i' (ix1 e') := by
  unfold inRange
  rw [reduce_unitCol_apply, reduce_unitCol_apply]
  congr 1
  show IntOp.andi (IntOp.cmpi .sge (idxCol (F := Ideal) (wrapIdx (F := Ideal) 50000#32 i) (ix2 e (0 : Fin 1))) 0#32)
      (IntOp.cmpi .sle (idxCol (F := Ideal) (wrapIdx (F := Ideal) 50000#32 i) (ix2 e (0 : Fin 1))) 49999#32)
    = IntOp.andi (IntOp.cmpi .sge (idxCol (F := Ideal) (wrapIdx (F := Ideal) 50000#32 i') (ix2 e' (0 : Fin 1))) 0#32)
      (IntOp.cmpi .sle (idxCol (F := Ideal) (wrapIdx (F := Ideal) 50000#32 i') (ix2 e' (0 : Fin 1))) 49999#32)
  rw [idxCol_apply, idxCol_apply, wrapIdx_apply, wrapIdx_apply, h]

/-- The row taken for an edge, column by column: the row of `x` at the edge's wrapped index (read signed, clamped)
    when the index is in range, else the fill word's value. -/
theorem takeFn_apply (x : (⟨S50000x256, .f32⟩ : BufTy).Contents (Elt Ideal))
    (i : (⟨S800000, .i32⟩ : BufTy).Contents (Elt Ideal)) (e : Fin 800000) (c : Fin 256) :
    takeFn (F := Ideal) x i (ix2 e c)
      = Scalar.select (inRange (F := Ideal) i (ix1 e))
          (x (ix2 ⟨min (wrapWord 50000#32 (i (ix1 e))).toInt.toNat (50000 - 1), by omega⟩ c))
          (Ideal.ofBits .f32 0x7FC00000#32) := by
  unfold takeFn
  rw [select_apply, bcastRows_apply]
  congr 1
  refine (gather_row_apply (by decide) gather_S50000x256_S800000x1_S800000x256_1_0_n_n_0_1_1256_wf x _ e c).trans ?_
  have hval : min (idxCol (F := Ideal) (wrapIdx (F := Ideal) 50000#32 i) (ix2 e (0 : Fin 1))).toInt.toNat (50000 - 1)
      = min (wrapWord 50000#32 (i (ix1 e))).toInt.toNat (50000 - 1) := by
    rw [idxCol_apply, wrapIdx_apply]
  exact congrArg (fun k => x (ix2 k c)) (Fin.ext hval)

/-- The row taken for an edge depends on the index vector at that edge only. -/
theorem takeFn_congr (x : (⟨S50000x256, .f32⟩ : BufTy).Contents (Elt Ideal))
    (i i' : (⟨S800000, .i32⟩ : BufTy).Contents (Elt Ideal)) (e e' : Fin 800000) (c : Fin 256)
    (h : i (ix1 e) = i' (ix1 e')) : takeFn (F := Ideal) x i (ix2 e c) = takeFn (F := Ideal) x i' (ix2 e' c) := by
  rw [takeFn_apply, takeFn_apply, inRange_congr i i' e e' h]
  simp only [h]

/-- A natural number below `2 ^ 31` is a non-negative 32-bit word. -/
theorem toInt_ofNat_small (m : Nat) (hm : m < 2 ^ 31) : (BitVec.ofNat 32 m).toInt = (m : Int) := by
  rw [BitVec.toInt_eq_toNat_cond, BitVec.toNat_ofNat]
  have : m % 2 ^ 32 = m := Nat.mod_eq_of_lt (by omega)
  rw [this]
  split <;> omega

/-- … so the wrap leaves it alone. -/
theorem wrapWord_small (n : BitVec 32) (m : Nat) (hm : m < 2 ^ 31) :
    wrapWord n (BitVec.ofNat 32 m) = BitVec.ofNat 32 m := by
  unfold wrapWord Scalar.select
  rw [if_neg]
  intro h
  have hb : (BitVec.ofNat 32 m).slt 0#32 = true := by
    cases hc : (BitVec.ofNat 32 m).slt 0#32
    · rw [show IntOp.cmpi .slt (BitVec.ofNat 32 m) 0#32 = BitVec.ofBool ((BitVec.ofNat 32 m).slt 0#32) from rfl, hc] at h
      exact absurd h (by decide)
    · rfl
  rw [BitVec.slt_iff_toInt_lt, toInt_ofNat_small m hm] at hb
  have : (0#32 : BitVec 32).toInt = 0 := by decide
  omega

/-- AN INDEX VECTOR RE-READ IN THE SORTED ORDER OF THE EDGES is the vector read through a bijection of the edges
    (the one bijection for every vector: the stable sort's, of the destination nodes). -/
theorem sortedBy_perm (dst : (⟨S800000, .i32⟩ : BufTy).Contents (Elt Ideal)) :
    ∃ σ : Fin 800000 → Fin 800000, Function.Bijective σ ∧
      ∀ (v : (⟨S800000, .i32⟩ : BufTy).Contents (Elt Ideal)) (e : Fin 800000),
        sortedBy (F := Ideal) dst v (ix1 e) = v (ix1 (σ e)) := by
  obtain ⟨σ, hσ, hs⟩ := sort2_rank1_snd_perm comparator_i32_i32_d0 dst (iotaInDim S800000 32 0)
  refine ⟨σ, hσ, fun v e => ?_⟩
  have hp : permOf (F := Ideal) dst (ix1 e) = BitVec.ofNat 32 (σ e).val := hs e
  have hlt : (σ e).val < 800000 := (σ e).isLt
  have hval : min (idxCol (F := Ideal) (wrapIdx (F := Ideal) 800000#32 (permOf (F := Ideal) dst))
      (ix2 e (0 : Fin 1))).toInt.toNat (800000 - 1) = (σ e).val := by
    rw [idxCol_apply, wrapIdx_apply, hp, wrapWord_small _ _ (by omega), toInt_ofNat_small _ (by omega)]
    omega
  unfold sortedBy
  refine (gather_col_apply (by decide) gather_S800000_S800000x1_S800000_n_0_n_n_0_1_1_wf v _ e).trans ?_
  exact congrArg (fun k => v (ix1 k)) (Fin.ext hval)

/-- THE PER-NODE SUM OF THE TAKEN ROWS over the sorted edge list is the sum over the edge list as given. -/
theorem aggFn_sorted (x : (⟨S50000x256, .f32⟩ : BufTy).Contents (Elt Ideal))
    (src dst : (⟨S800000, .i32⟩ : BufTy).Contents (Elt Ideal)) :
    aggFn (F := Ideal) x (sortedBy (F := Ideal) dst src) (sortedBy (F := Ideal) dst dst) = aggFn (F := Ideal) x src dst := by
  obtain ⟨σ, hσ, hs⟩ := sortedBy_perm dst
  unfold aggFn
  refine hostScatterAdd_rows_reindex scatter_S50000x256_S800000x1_S800000x256_1_0_0_1_wf _ _ _ _ _ σ hσ
    (fun e => ?_) (fun e c => ?_)
  · rw [idxCol_apply, idxCol_apply, hs]
  · exact takeFn_congr x _ _ e (σ e) c (hs src e)

/-- THE PER-NODE DEGREE over the sorted edge list is the degree over the edge list as given. -/
theorem degFn_sorted (dst : (⟨S800000, .i32⟩ : BufTy).Contents (Elt Ideal)) :
    degFn (F := Ideal) (sortedBy (F := Ideal) dst dst) = degFn (F := Ideal) dst := by
  obtain ⟨σ, hσ, hs⟩ := sortedBy_perm dst
  unfold degFn
  refine hostScatterAdd_col_reindex scatter_S50000_S800000x1_S800000_n_0_0_1_wf _ _ _ _ _ σ hσ
    (fun e => ?_) (fun e => rfl)
  rw [idxCol_apply, idxCol_apply, hs]

end Cert.KernelIdeal.Spec

end
-- ==== Proof.RefSpec.lean ====
/-
  The stages of one mean-aggregation graph layer, as whole-array functions of the program's printed operations:
  an index wrapped once when negative; the rows of a feature matrix taken at a vector of node indices (rows at an
  index outside the matrix are a fill word); the rows summed per destination node; the per-node in-degree; and the
  dense combination  (sum / max(degree, 1)) · W_l + b + x · W_r  with an optional rectifier.
-/
import proofs.«136564_j80066780332145_2_alg».proof.ReferenceIdeal

noncomputable section

namespace Cert.ReferenceIdeal.Spec

open Idealize.ShloMosaic Cert.ReferenceIdeal Cert.ReferenceIdeal.Facts₀

variable {F : FTy → Type} [FloatOps F] [Facts]

/-- An index vector with `n` added where the index is negative (numpy's wrap-around of a negative index). -/
def wrapIdx (n : BitVec 32) (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 n))) i

/-- An index vector as a one-column matrix of start indices. -/
def idxCol (i : (⟨S800000, .i32⟩ : BufTy).Contents (Elt F)) : (⟨S800000x1, .i32⟩ : BufTy).Contents (Elt F) :=
  broadcastInDim S800000x1 ![0] bcast_S800000_S800000x1_0 i

/-- Per edge: is the (wrapped) node index inside [0, 49999]? -/
def inRange (i : (⟨S800000, .i32⟩ : BufTy).Contents (Elt F)) : (⟨S800000, .i1⟩ : BufTy).Contents (Elt F) :=
  Host.reduce IntOp.andi
    (andi (cmpi .sge (idxCol (F := F) (wrapIdx 50000#32 i)) (broadcastInDim S800000x1 ![] bcast_S_S800000x1 (constantI S_ 32 0#32)))
      (cmpi .sle (idxCol (F := F) (wrapIdx 50000#32 i))
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The rows of `x` at the node indices `i`, one row per edge; a row whose index is out of range is the fill word. -/
def takeFn (x : (⟨S50000x256, .f32⟩ : BufTy).Contents (Elt F)) (i : (⟨S800000, .i32⟩ : BufTy).Contents (Elt F)) :
    (⟨S800000x256, .f32⟩ : BufTy).Contents (Elt F) :=
  select (broadcastInDim S800000x256 ![0] bcast_S800000_S800000x256_0 (inRange (F := F) i))
    (Host.gather gather_S50000x256_S800000x1_S800000x256_1_0_n_n_0_1_1256 x (idxCol (F := F) (wrapIdx 50000#32 i)))
    (broadcastInDim S800000x256 ![] bcast_S_S800000x256 (constant S_ .f32 0x7FC00000#32))

/-- Per destination node, the sum of the rows of `x` taken at the source nodes of the edges that end there. -/
def aggFn (x : (⟨S50000x256, .f32⟩ : BufTy).Contents (Elt F)) (src dst : (⟨S800000, .i32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (idxCol (F := F) dst) (takeFn x src)

/-- Per destination node, the number of edges that end there. -/
def degFn (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (idxCol (F := F) dst)
    (broadcastInDim S800000 ![] bcast_S_S800000 (constant S_ .f32 0x3F800000#32))

/-- Row 0 and row 1 of the edge list: the source and the destination node of every edge. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000
def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The dense combination of a layer: (s / max(d, 1)) · W_l + b + x · W_r. -/
def denseFn (s : (⟨S50000x256, .f32⟩ : BufTy).Contents (Elt F)) (d : (⟨S50000, .f32⟩ : BufTy).Contents (Elt F))
    (x : (⟨S50000x256, .f32⟩ : BufTy).Contents (Elt F)) (wl : (⟨S256x256, .f32⟩ : BufTy).Contents (Elt F))
    (b : (⟨S256, .f32⟩ : BufTy).Contents (Elt F)) (wr : (⟨S256x256, .f32⟩ : BufTy).Contents (Elt F)) :
    (⟨S50000x256, .f32⟩ : BufTy).Contents (Elt F) :=
  addf
    (addf
      (Host.dotGeneral dot_S50000x256_S256x256_S50000x256_1_0_0_1_n_n none
        (Host.divf s
          (broadcastInDim S50000x256 ![0, 1] bcast_S50000x1_S50000x256_0_1
            (broadcastInDim S50000x1 ![0] bcast_S50000_S50000x1_0
              (maximumf d (broadcastInDim S50000 ![] bcast_S_S50000 (constant S_ .f32 0x3F800000#32))))))
        wl)
      (broadcastInDim S50000x256 ![0, 1] bcast_S1x256_S50000x256_0_1 (broadcastInDim S1x256 ![1] bcast_S256_S1x256_1 b)))
    (Host.dotGeneral dot_S50000x256_S256x256_S50000x256_1_0_0_1_n_n none x wr)

/-- The rectifier: the maximum with zero. -/
def reluFn (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- One layer over the edge list's two rows. -/
def layerFn (x : (⟨S50000x256, .f32⟩ : BufTy).Contents (Elt F)) (src dst : (⟨S800000, .i32⟩ : BufTy).Contents (Elt F))
    (wl : (⟨S256x256, .f32⟩ : BufTy).Contents (Elt F)) (b : (⟨S256, .f32⟩ : BufTy).Contents (Elt F))
    (wr : (⟨S256x256, .f32⟩ : BufTy).Contents (Elt F)) : (⟨S50000x256, .f32⟩ : BufTy).Contents (Elt F) :=
  denseFn (aggFn x src dst) (degFn (F := F) dst) x wl b wr

/-- The whole network: a rectified layer, then a plain one, over the same edges. -/
def refOut (a0 : (⟨S50000x256, .f32⟩ : BufTy).Contents (Elt F)) (a1 : (⟨S2x800000, .i32⟩ : BufTy).Contents (Elt F))
    (a2 : (⟨S256x256, .f32⟩ : BufTy).Contents (Elt F)) (a3 : (⟨S256, .f32⟩ : BufTy).Contents (Elt F))
    (a4 : (⟨S256x256, .f32⟩ : BufTy).Contents (Elt F)) (a5 : (⟨S256x256, .f32⟩ : BufTy).Contents (Elt F))
    (a6 : (⟨S256, .f32⟩ : BufTy).Contents (Elt F)) (a7 : (⟨S256x256, .f32⟩ : BufTy).Contents (Elt F)) :
    (⟨S50000x256, .f32⟩ : BufTy).Contents (Elt F) :=
  layerFn (reluFn (layerFn a0 (srcOf (F := F) a1) (dstOf (F := F) a1) a2 a3 a4)) (srcOf (F := F) a1) (dstOf (F := F) a1) a5 a6 a7

end Cert.ReferenceIdeal.Spec

end
-- ==== Proof.DenseRef.lean ====
/-
  The reference's dense combination read at one element, and its agreement with the kernel's.

  The reference divides each node's summed row by max(degree, 1) and multiplies by W_l; the kernel multiplies the
  row by 1 / max(degree, 1) first. The divisor is at least one, hence not zero, and for a non-zero divisor a
  quotient is the product with the reciprocal on all extended reals: s / d = s · d⁻¹ = s · (1 · d⁻¹). Nothing else
  differs: the host's contraction is the same sum of products as the matrix unit's, the bias is added at the same
  place, and the narrowing of the weights is the identity.
-/
import proofs.«136564_j80066780332145_2_alg».proof.Proof.RefSpec
import proofs.«136564_j80066780332145_2_alg».proof.Proof.Dense
import Idealize.ShloMosaic.Lib.Pipeline.Value

noncomputable section

open scoped BigOperators

namespace Cert.Bridge

open Idealize.ShloMosaic Idealize.ShloMosaic.ValueIdx
open Cert.KernelIdeal.Dense (pre cell combine)

/-- For a divisor at least one, a quotient is the product with the reciprocal. -/
theorem div_eq_mul_recip (s d : EReal) (hd : 1 ≤ d) : Ideal.div s d = s * Ideal.div 1 d := by
  have h1 : (0 : EReal) < 1 := by exact_mod_cast (zero_lt_one : (0 : ℝ) < 1)
  have h0 : d ≠ 0 := (lt_of_lt_of_le h1 hd).ne'
  unfold Ideal.div
  rw [if_neg h0, if_neg h0, one_mul]

section Ref

open Cert.ReferenceIdeal Cert.ReferenceIdeal.Facts₀ Cert.ReferenceIdeal.Spec

variable [Cert.ReferenceIdeal.Facts]

theorem dotR_plain : dot_S50000x256_S256x256_S50000x256_1_0_0_1_n_n = DotDims.plain 50000 256 256 := rfl

/-- The host's contraction of [50000,256] by [256,256] at (r, q): the sum over k of l[r,k] · w[k,q]. -/
theorem dotR_apply (l : FVec Ideal S50000x256 .f32) (w : FVec Ideal S256x256 .f32) (r : Fin 50000) (q : Fin 256) :
    Host.dotGeneral dot_S50000x256_S256x256_S50000x256_1_0_0_1_n_n none l w (ix2 r q) = ∑ k : Fin 256, l (ix2 r k) * w (ix2 k q) := by
  rw [dotR_plain]
  simp only [Host.dotGeneral]
  rw [Ideal.dotGeneral_apply, Cert.LinRelu.plain_contr_sum]

/-- The clamped degree, laid as a column and broadcast along the features, read at (r, k): max(d[r], 1). -/
theorem clampDeg_apply (d : FVec Ideal S50000 .f32) (r : Fin 50000) (k : Fin 256) :
    broadcastInDim S50000x256 ![0, 1] bcast_S50000x1_S50000x256_0_1
        (broadcastInDim S50000x1 ![0] bcast_S50000_S50000x1_0
          (maximumf d (broadcastInDim S50000 ![] bcast_S_S50000 (constant (F := Ideal) S_ .f32 0x3F800000#32)))) (ix2 r k)
      = max (d (ix1 r)) 1 := by
  rw [broadcastInDim_apply _ bcast_S50000x1_S50000x256_0_1 _ (ix2 r k) (ix2 r 0) (fun a => by
        match a with
        | ⟨0, _⟩ => rfl
        | ⟨1, _⟩ => rfl),
    broadcastInDim_apply _ bcast_S50000_S50000x1_0 _ (ix2 r 0) (ix1 r) (fun a => by
        match a with
        | ⟨0, _⟩ => rfl),
    maximumf_apply, broadcastInDim_apply _ bcast_S_S50000 _ (ix1 r) ValueIdx.ix0 (fun a => a.elim0), constant_apply,
    Cert.GraphLaws.ofBits_one]
  rfl

/-- The bias laid as a row and broadcast down the nodes, read at (r, q): b[q]. -/
theorem biasR_apply (b : FVec Ideal S256 .f32) (r : Fin 50000) (q : Fin 256) :
    broadcastInDim S50000x256 ![0, 1] bcast_S1x256_S50000x256_0_1 (broadcastInDim S1x256 ![1] bcast_S256_S1x256_1 b) (ix2 r q)
      = b (ix1 q) := by
  rw [broadcastInDim_apply _ bcast_S1x256_S50000x256_0_1 _ (ix2 r q) (ix2 (0 : Fin 1) q) (fun a => by
        match a with
        | ⟨0, _⟩ => rfl
        | ⟨1, _⟩ => rfl),
    broadcastInDim_apply _ bcast_S256_S1x256_1 _ (ix2 (0 : Fin 1) q) (ix1 q) (fun a => by
        match a with
        | ⟨0, _⟩ => rfl)]

/-- The host's quotient at an element. -/
theorem hostDivf_apply {s : Shape} (a b : FVec Ideal s .f32) (i : s.Idx) : Host.divf a b i = Ideal.div (a i) (b i) := rfl

/-- The reference's dense combination at (r, q) is the layer's value before the rectifier, for any column D2 that
    holds the degrees and any weights equal entry by entry. -/
theorem denseFn_apply (S : FVec Ideal S50000x256 .f32) (D : FVec Ideal S50000 .f32) (x : FVec Ideal S50000x256 .f32)
    (wl : FVec Ideal S256x256 .f32) (b : FVec Ideal S256 .f32) (wr : FVec Ideal S256x256 .f32)
    (D2 : (⟨2, ![50000, 1]⟩ : Shape).Idx → EReal) (wl' wr' : (⟨2, ![256, 256]⟩ : Shape).Idx → EReal)
    (hD : ∀ r, D2 (ix2 r 0) = D (ix1 r)) (hwl : ∀ k q, wl' (ix2 k q) = wl (ix2 k q)) (hwr : ∀ k q, wr' (ix2 k q) = wr (ix2 k q))
    (r : Fin 50000) (q : Fin 256) :
    denseFn (F := Ideal) S D x wl b wr (ix2 r q) = pre S D2 x wl' b wr' r q := by
  unfold denseFn pre
  rw [addf_apply, addf_apply, dotR_apply, dotR_apply, biasR_apply, hD r]
  refine congrArg₂ (fun s u => s + b (ix1 q) + u) (Finset.sum_congr rfl fun k _ => ?_) (Finset.sum_congr rfl fun k _ => ?_)
  · rw [hwl k q]
    rw [hostDivf_apply, clampDeg_apply, div_eq_mul_recip _ _ (le_max_right _ _)]
  · rw [hwr k q]

/-- The rectifier at an element. -/
theorem reluFn_apply (x : FVec Ideal S50000x256 .f32) (i : S50000x256.Idx) : reluFn (F := Ideal) x i = max (x i) 0 := by
  unfold reluFn
  rw [maximumf_apply, broadcastInDim_apply _ bcast_S_S50000x256 _ i ValueIdx.ix0 (fun a => a.elim0), constant_apply,
    Cert.GraphLaws.ofBits_zero]

end Ref

end Cert.Bridge

end
-- ==== Proof.Bridge.lean ====
/-
  The kernel program's result and the reference's are one function of the arguments.

  Kernel side: each layer is the dense combination over the per-node sums taken with the edges in the sorted order of
  their destinations; summing per destination node does not depend on the order of the edges, so the sorted rows
  may be replaced by the edge list's own rows. Reference side: the same sums, the same degrees, and the dense
  combination spelt with a quotient where the kernel multiplies by a reciprocal; element by element both are the
  layer's value (the divisor max(degree, 1) is not zero). The two programs' stage functions are the same text over
  their own copies of the shape records.
-/
import proofs.«136564_j80066780332145_2_alg».proof.Proof.KerOut
import proofs.«136564_j80066780332145_2_alg».proof.Proof.KerEdges
import proofs.«136564_j80066780332145_2_alg».proof.Proof.DenseRef
import proofs.«136564_j80066780332145_2_alg».proof.Proof.Gen.ReferenceIdeal

set_option maxRecDepth 16384

noncomputable section

namespace Cert.Bridge

open Idealize.ShloMosaic Idealize.ShloMosaic.ValueIdx
open Cert.KernelIdeal.Dense (pre cell combine)
open Cert.KernelIdeal.Out (layerK)

/-! ## The two programs' stage functions are one -/

theorem aggFn_KR (x : (⟨Cert.KernelIdeal.S50000x256, .f32⟩ : BufTy).Contents (Elt Ideal))
    (src dst : (⟨Cert.KernelIdeal.S800000, .i32⟩ : BufTy).Contents (Elt Ideal)) :
    Cert.KernelIdeal.Spec.aggFn (F := Ideal) x src dst = Cert.ReferenceIdeal.Spec.aggFn (F := Ideal) x src dst := rfl

theorem degFn_KR (dst : (⟨Cert.KernelIdeal.S800000, .i32⟩ : BufTy).Contents (Elt Ideal)) :
    Cert.KernelIdeal.Spec.degFn (F := Ideal) dst = Cert.ReferenceIdeal.Spec.degFn (F := Ideal) dst := rfl

theorem srcOf_KR (ei : (⟨Cert.KernelIdeal.S2x800000, .i32⟩ : BufTy).Contents (Elt Ideal)) :
    Cert.KernelIdeal.Spec.srcOf (F := Ideal) ei = Cert.ReferenceIdeal.Spec.srcOf (F := Ideal) ei := rfl

theorem dstOf_KR (ei : (⟨Cert.KernelIdeal.S2x800000, .i32⟩ : BufTy).Contents (Elt Ideal)) :
    Cert.KernelIdeal.Spec.dstOf (F := Ideal) ei = Cert.ReferenceIdeal.Spec.dstOf (F := Ideal) ei := rfl

/-! ## One layer -/

/-- The kernel's layer over the sorted rows of the edge list is its layer over the edge list's own rows. -/
theorem layerK_sorted (relu : Bool) (x : Cert.KernelIdeal.S50000x256.Idx → EReal)
    (src dst : (⟨Cert.KernelIdeal.S800000, .i32⟩ : BufTy).Contents (Elt Ideal))
    (wl : FVec Ideal Cert.KernelIdeal.S256x256 .f32) (b : Cert.KernelIdeal.S256.Idx → EReal) (wr : FVec Ideal Cert.KernelIdeal.S256x256 .f32) :
    layerK relu x (Cert.KernelIdeal.Spec.sortedBy (F := Ideal) dst src) (Cert.KernelIdeal.Spec.sortedBy (F := Ideal) dst dst) wl b wr
      = layerK relu x src dst wl b wr := by
  unfold layerK
  rw [Cert.KernelIdeal.Spec.aggFn_sorted, Cert.KernelIdeal.Spec.degFn_sorted]

/-- The degree column at row r is the degree of node r. -/
theorem degCol_apply (d : (⟨Cert.KernelIdeal.S50000, .f32⟩ : BufTy).Contents (Elt Ideal)) (r : Fin 50000) :
    Cert.KernelIdeal.Spec.degCol (F := Ideal) d (ix2 r 0) = d (ix1 r) := by
  unfold Cert.KernelIdeal.Spec.degCol
  exact broadcastInDim_apply _ _ _ (ix2 r 0) (ix1 r) (fun a => by
    match a with
    | ⟨0, _⟩ => rfl)

/-- The kernel's layer at an element is the reference's layer there, rectified or plain. -/
theorem layerK_apply (relu : Bool) (x : Cert.KernelIdeal.S50000x256.Idx → EReal)
    (src dst : (⟨Cert.KernelIdeal.S800000, .i32⟩ : BufTy).Contents (Elt Ideal))
    (wl : FVec Ideal Cert.KernelIdeal.S256x256 .f32) (b : Cert.KernelIdeal.S256.Idx → EReal) (wr : FVec Ideal Cert.KernelIdeal.S256x256 .f32)
    (i : Cert.KernelIdeal.S50000x256.Idx) :
    layerK relu x src dst wl b wr i
      = if relu then max (Cert.ReferenceIdeal.Spec.layerFn (F := Ideal) x src dst wl b wr i) 0
        else Cert.ReferenceIdeal.Spec.layerFn (F := Ideal) x src dst wl b wr i := by
  obtain ⟨r, q, rfl⟩ : ∃ (r : Fin 50000) (q : Fin 256), i = ix2 r q := ⟨i 0, i 1, eq_ix2 i⟩
  have hd := denseFn_apply (Cert.ReferenceIdeal.Spec.aggFn (F := Ideal) x src dst) (Cert.ReferenceIdeal.Spec.degFn (F := Ideal) dst) x wl b wr
    (Cert.KernelIdeal.Spec.degCol (F := Ideal) (Cert.KernelIdeal.Spec.degFn (F := Ideal) dst))
    (truncf .bf16 wl Cert.KernelIdeal.Facts₀.bitsLt_bf16_f32) (truncf .bf16 wr Cert.KernelIdeal.Facts₀.bitsLt_bf16_f32)
    (fun r => (degCol_apply _ r).trans (congrFun (degFn_KR dst) (ix1 r))) (fun _ _ => rfl) (fun _ _ => rfl) r q
  unfold Cert.ReferenceIdeal.Spec.layerFn
  rw [hd]
  show cell relu (Cert.KernelIdeal.Spec.aggFn (F := Ideal) x src dst) _ x _ b _ r q = _
  rw [aggFn_KR]
  rfl

/-! ## The whole network -/

/-- The kernel's two layers over the edge list's own rows are the reference's network. -/
theorem network_eq (a0 : (⟨Cert.KernelIdeal.S50000x256, .f32⟩ : BufTy).Contents (Elt Ideal))
    (a1 : (⟨Cert.KernelIdeal.S2x800000, .i32⟩ : BufTy).Contents (Elt Ideal))
    (a2 : FVec Ideal Cert.KernelIdeal.S256x256 .f32) (a3 : (⟨Cert.KernelIdeal.S256, .f32⟩ : BufTy).Contents (Elt Ideal))
    (a4 a5 : FVec Ideal Cert.KernelIdeal.S256x256 .f32) (a6 : (⟨Cert.KernelIdeal.S256, .f32⟩ : BufTy).Contents (Elt Ideal))
    (a7 : FVec Ideal Cert.KernelIdeal.S256x256 .f32) :
    layerK false (layerK true a0 (Cert.KernelIdeal.Spec.srcOf (F := Ideal) a1) (Cert.KernelIdeal.Spec.dstOf (F := Ideal) a1) a2 a3 a4)
        (Cert.KernelIdeal.Spec.srcOf (F := Ideal) a1) (Cert.KernelIdeal.Spec.dstOf (F := Ideal) a1) a5 a6 a7
      = Cert.ReferenceIdeal.Spec.refOut (F := Ideal) a0 a1 a2 a3 a4 a5 a6 a7 := by
  have h1 : layerK true a0 (Cert.KernelIdeal.Spec.srcOf (F := Ideal) a1) (Cert.KernelIdeal.Spec.dstOf (F := Ideal) a1) a2 a3 a4
      = Cert.ReferenceIdeal.Spec.reluFn (F := Ideal) (Cert.ReferenceIdeal.Spec.layerFn (F := Ideal) a0
          (Cert.ReferenceIdeal.Spec.srcOf (F := Ideal) a1) (Cert.ReferenceIdeal.Spec.dstOf (F := Ideal) a1) a2 a3 a4) := by
    funext j
    rw [layerK_apply, if_pos rfl, reluFn_apply, srcOf_KR, dstOf_KR]
  funext i
  rw [layerK_apply, if_neg Bool.false_ne_true, h1, srcOf_KR, dstOf_KR]
  rfl

/-! ## The kernel program's result array -/

section Value

open Cert.KernelIdeal Idealize.ShloMosaic.TcCoe Idealize.SL.Sem

/-- After the kernel program's run the result array holds the reference's network of the launch contents. -/
theorem kernel_value (m : (ℓ : Loc nD τ sig) → Buf (Elt Ideal) ℓ) (ρ : Dev nD → PrngReg) (c : Dev nD) :
    Cert.KernelIdeal.Gen.W9 m ρ c (Proc.devRef .tc main_v37)
      = Cert.ReferenceIdeal.Spec.refOut (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (Cert.KernelIdeal.Out.result_eq m ρ c).trans ?_
  rw [layerK_sorted, layerK_sorted]
  exact network_eq _ _ _ _ _ _ _ _

end Value

end Cert.Bridge

end
-- ==== Proof.RefRun.lean ====
/-
  The reference program's run: @main written as the list of its operations in order, each call of a module
  function replaced by the callee's operations over that call's buffers, and the contents of the result buffer
  after the list has run, read back as the composition of the layer's stage functions applied to the arguments.
-/
import proofs.«136564_j80066780332145_2_alg».proof.Proof.Gen.ReferenceIdeal
import proofs.«136564_j80066780332145_2_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 97 operations in order: its own, and at each call the callee's over that call's buffers (the
    index wrap's select is the innermost call, inside each row take). -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.TRef.nullary main_call0.c (constantI S_ 32 0#32),
    StableHlo.TRef.unary main_call0.c main_call0.v0 (broadcastInDim S800000 ![] bcast_S_S800000),
    StableHlo.TRef.binary (.of main_v1 : StableHlo.TRef sig ⟨S800000, .i32⟩) main_call0.v0 main_call0.v1 (cmpi .slt),
    StableHlo.TRef.nullary main_call0.c_0 (constantI S_ 32 50000#32),
    StableHlo.TRef.unary main_call0.c_0 main_call0.v2 (broadcastInDim S800000 ![] bcast_S_S800000),
    StableHlo.TRef.binary (.of main_v1 : StableHlo.TRef sig ⟨S800000, .i32⟩) main_call0.v2 main_call0.v3 addi,
    StableHlo.TRef.ternary main_call0.v1 main_call0.v3 (.of main_v1 : StableHlo.TRef sig ⟨S800000, .i32⟩) main_call0.call0.v0 select,
    StableHlo.TRef.unary main_call0.call0.v0 main_call0.v5 (broadcastInDim S800000x1 ![0] bcast_S800000_S800000x1_0),
    StableHlo.TRef.nullary main_call0.c_1 (constantI S1 32 49999#32),
    StableHlo.TRef.nullary main_call0.c_2 (constantI S_ 32 0#32),
    StableHlo.TRef.unary main_call0.c_2 main_call0.v6 (broadcastInDim S800000x1 ![] bcast_S_S800000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S800000x1 ![0, 1] bcast_S1x1_S800000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S800000x1_S800000_d1 h_S_),
    StableHlo.TRef.binary (.of main_arg0 : StableHlo.TRef sig ⟨S50000x256, .f32⟩) main_call0.v5 main_call0.v13 (fun x i => Host.gather gather_S50000x256_S800000x1_S800000x256_1_0_n_n_0_1_1256 x i),
    StableHlo.TRef.unary main_call0.v12 main_call0.v14 (broadcastInDim S800000x256 ![0] bcast_S800000_S800000x256_0),
    StableHlo.TRef.nullary main_call0.cst (constant S_ .f32 0x7FC00000#32),
    StableHlo.TRef.unary main_call0.cst main_call0.v15 (broadcastInDim S800000x256 ![] bcast_S_S800000x256),
    StableHlo.TRef.ternary main_call0.v14 main_call0.v13 main_call0.v15 main_call0.v16 select,
    StableHlo.nullary main_cst (constant S_ .f32 0x00000000#32),
    StableHlo.unary main_cst main_v5 (broadcastInDim S50000x256 ![] bcast_S_S50000x256 : (⟨S_, .f32⟩ : BufTy).Contents (Elt F) → (⟨S50000x256, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_0 (constant S_ .f32 0x3F800000#32),
    StableHlo.unary main_cst_0 main_v8 (broadcastInDim S800000 ![] bcast_S_S800000 : (⟨S_, .f32⟩ : BufTy).Contents (Elt F) → (⟨S800000, .f32⟩ : BufTy).Contents (Elt F)),
    StableHlo.nullary main_cst_1 (constant S_ .f32 0x00000000#32),
    StableHlo.unary main_cst_1 main_v9 (broadcastInDim S50000 ![] bcast_S_S50000 : (⟨S_, .f32⟩ : BufTy).Contents (Elt F) → (⟨S50000, .f32⟩ : BufTy).Contents (Elt F)),
    StableHlo.unary main_v3 main_v10 (broadcastInDim S800000x1 ![0] bcast_S800000_S800000x1_0 : (⟨S800000, .i32⟩ : BufTy).Contents (Elt F) → (⟨S800000x1, .i32⟩ : BufTy).Contents (Elt F)),
    StableHlo.ternary main_v9 main_v10 main_v8 main_v11 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.unary main_cst_2 main_v12 (broadcastInDim S50000 ![] bcast_S_S50000 : (⟨S_, .f32⟩ : BufTy).Contents (Elt F) → (⟨S50000, .f32⟩ : BufTy).Contents (Elt F)),
    StableHlo.binary main_v11 main_v12 main_v13 (maximumf : (⟨S50000, .f32⟩ : BufTy).Contents (Elt F) → (⟨S50000, .f32⟩ : BufTy).Contents (Elt F) → (⟨S50000, .f32⟩ : BufTy).Contents (Elt F)),
    StableHlo.unary main_v13 main_v14 (broadcastInDim S50000x1 ![0] bcast_S50000_S50000x1_0 : (⟨S50000, .f32⟩ : BufTy).Contents (Elt F) → (⟨S50000x1, .f32⟩ : BufTy).Contents (Elt F)),
    StableHlo.unary main_v14 main_v15 (broadcastInDim S50000x256 ![0, 1] bcast_S50000x1_S50000x256_0_1 : (⟨S50000x1, .f32⟩ : BufTy).Contents (Elt F) → (⟨S50000x256, .f32⟩ : BufTy).Contents (Elt F)),
    StableHlo.binary main_v7 main_v15 main_v16 (Host.divf : (⟨S50000x256, .f32⟩ : BufTy).Contents (Elt F) → (⟨S50000x256, .f32⟩ : BufTy).Contents (Elt F) → (⟨S50000x256, .f32⟩ : BufTy).Contents (Elt F)),
    StableHlo.binary main_v16 main_arg2 main_v17 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v18 (broadcastInDim S1x256 ![1] bcast_S256_S1x256_1 : (⟨S256, .f32⟩ : BufTy).Contents (Elt F) → (⟨S1x256, .f32⟩ : BufTy).Contents (Elt F)),
    StableHlo.unary main_v18 main_v19 (broadcastInDim S50000x256 ![0, 1] bcast_S1x256_S50000x256_0_1 : (⟨S1x256, .f32⟩ : BufTy).Contents (Elt F) → (⟨S50000x256, .f32⟩ : BufTy).Contents (Elt F)),
    StableHlo.binary main_v17 main_v19 main_v20 (addf : (⟨S50000x256, .f32⟩ : BufTy).Contents (Elt F) → (⟨S50000x256, .f32⟩ : BufTy).Contents (Elt F) → (⟨S50000x256, .f32⟩ : BufTy).Contents (Elt F)),
    StableHlo.binary main_arg0 main_arg4 main_v21 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v20 main_v21 main_v22 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v22 : StableHlo.TRef sig ⟨S50000x256, .f32⟩) main_call1.v0 main_call1.v1 maximumf,
    StableHlo.TRef.nullary main_call2.c (constantI S_ 32 0#32),
    StableHlo.TRef.unary main_call2.c main_call2.v0 (broadcastInDim S800000 ![] bcast_S_S800000),
    StableHlo.TRef.binary (.of main_v1 : StableHlo.TRef sig ⟨S800000, .i32⟩) main_call2.v0 main_call2.v1 (cmpi .slt),
    StableHlo.TRef.nullary main_call2.c_0 (constantI S_ 32 50000#32),
    StableHlo.TRef.unary main_call2.c_0 main_call2.v2 (broadcastInDim S800000 ![] bcast_S_S800000),
    StableHlo.TRef.binary (.of main_v1 : StableHlo.TRef sig ⟨S800000, .i32⟩) main_call2.v2 main_call2.v3 addi,
    StableHlo.TRef.ternary main_call2.v1 main_call2.v3 (.of main_v1 : StableHlo.TRef sig ⟨S800000, .i32⟩) main_call2.call0.v0 select,
    StableHlo.TRef.unary main_call2.call0.v0 main_call2.v5 (broadcastInDim S800000x1 ![0] bcast_S800000_S800000x1_0),
    StableHlo.TRef.nullary main_call2.c_1 (constantI S1 32 49999#32),
    StableHlo.TRef.nullary main_call2.c_2 (constantI S_ 32 0#32),
    StableHlo.TRef.unary main_call2.c_2 main_call2.v6 (broadcastInDim S800000x1 ![] bcast_S_S800000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S800000x1 ![0, 1] bcast_S1x1_S800000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S800000x1_S800000_d1 h_S_),
    StableHlo.TRef.binary (.of main_v23 : StableHlo.TRef sig ⟨S50000x256, .f32⟩) main_call2.v5 main_call2.v13 (fun x i => Host.gather gather_S50000x256_S800000x1_S800000x256_1_0_n_n_0_1_1256 x i),
    StableHlo.TRef.unary main_call2.v12 main_call2.v14 (broadcastInDim S800000x256 ![0] bcast_S800000_S800000x256_0),
    StableHlo.TRef.nullary main_call2.cst (constant S_ .f32 0x7FC00000#32),
    StableHlo.TRef.unary main_call2.cst main_call2.v15 (broadcastInDim S800000x256 ![] bcast_S_S800000x256),
    StableHlo.TRef.ternary main_call2.v14 main_call2.v13 main_call2.v15 main_call2.v16 select,
    StableHlo.nullary main_cst_3 (constant S_ .f32 0x00000000#32),
    StableHlo.unary main_cst_3 main_v25 (broadcastInDim S50000x256 ![] bcast_S_S50000x256 : (⟨S_, .f32⟩ : BufTy).Contents (Elt F) → (⟨S50000x256, .f32⟩ : BufTy).Contents (Elt F)),
    StableHlo.unary main_v3 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v24 main_v27 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_4 (constant S_ .f32 0x3F800000#32),
    StableHlo.unary main_cst_4 main_v28 (broadcastInDim S800000 ![] bcast_S_S800000 : (⟨S_, .f32⟩ : BufTy).Contents (Elt F) → (⟨S800000, .f32⟩ : BufTy).Contents (Elt F)),
    StableHlo.nullary main_cst_5 (constant S_ .f32 0x00000000#32),
    StableHlo.unary main_cst_5 main_v29 (broadcastInDim S50000 ![] bcast_S_S50000 : (⟨S_, .f32⟩ : BufTy).Contents (Elt F) → (⟨S50000, .f32⟩ : BufTy).Contents (Elt F)),
    StableHlo.unary main_v3 main_v30 (broadcastInDim S800000x1 ![0] bcast_S800000_S800000x1_0 : (⟨S800000, .i32⟩ : BufTy).Contents (Elt F) → (⟨S800000x1, .i32⟩ : BufTy).Contents (Elt F)),
    StableHlo.ternary main_v29 main_v30 main_v28 main_v31 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_6 (constant S_ .f32 0x3F800000#32),
    StableHlo.unary main_cst_6 main_v32 (broadcastInDim S50000 ![] bcast_S_S50000 : (⟨S_, .f32⟩ : BufTy).Contents (Elt F) → (⟨S50000, .f32⟩ : BufTy).Contents (Elt F)),
    StableHlo.binary main_v31 main_v32 main_v33 (maximumf : (⟨S50000, .f32⟩ : BufTy).Contents (Elt F) → (⟨S50000, .f32⟩ : BufTy).Contents (Elt F) → (⟨S50000, .f32⟩ : BufTy).Contents (Elt F)),
    StableHlo.unary main_v33 main_v34 (broadcastInDim S50000x1 ![0] bcast_S50000_S50000x1_0 : (⟨S50000, .f32⟩ : BufTy).Contents (Elt F) → (⟨S50000x1, .f32⟩ : BufTy).Contents (Elt F)),
    StableHlo.unary main_v34 main_v35 (broadcastInDim S50000x256 ![0, 1] bcast_S50000x1_S50000x256_0_1 : (⟨S50000x1, .f32⟩ : BufTy).Contents (Elt F) → (⟨S50000x256, .f32⟩ : BufTy).Contents (Elt F)),
    StableHlo.binary main_v27 main_v35 main_v36 (Host.divf : (⟨S50000x256, .f32⟩ : BufTy).Contents (Elt F) → (⟨S50000x256, .f32⟩ : BufTy).Contents (Elt F) → (⟨S50000x256, .f32⟩ : BufTy).Contents (Elt F)),
    StableHlo.binary main_v36 main_arg5 main_v37 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S50000x256 ![0, 1] bcast_S1x256_S50000x256_0_1 : (⟨S1x256, .f32⟩ : BufTy).Contents (Elt F) → (⟨S50000x256, .f32⟩ : BufTy).Contents (Elt F)),
    StableHlo.binary main_v37 main_v39 main_v40 (addf : (⟨S50000x256, .f32⟩ : BufTy).Contents (Elt F) → (⟨S50000x256, .f32⟩ : BufTy).Contents (Elt F) → (⟨S50000x256, .f32⟩ : BufTy).Contents (Elt F)),
    StableHlo.binary main_v23 main_arg7 main_v41 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v40 main_v41 main_v42 (addf : (⟨S50000x256, .f32⟩ : BufTy).Contents (Elt F) → (⟨S50000x256, .f32⟩ : BufTy).Contents (Elt F) → (⟨S50000x256, .f32⟩ : BufTy).Contents (Elt F)) ]

set_option maxRecDepth 16384 in
/-- @main is that straight line: the functions' definitions unfolded at their calls and the records at their
    fields, both sides are one chain of steps once sequencing is reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩

/-- The operations of @main up to the first layer's rectified output (the edge rows, the first row take, the first
    layer's sums, degrees and dense combination, the rectifier). -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.TRef.nullary main_call0.c (constantI S_ 32 0#32),
    StableHlo.TRef.unary main_call0.c main_call0.v0 (broadcastInDim S800000 ![] bcast_S_S800000),
    StableHlo.TRef.binary (.of main_v1 : StableHlo.TRef sig ⟨S800000, .i32⟩) main_call0.v0 main_call0.v1 (cmpi .slt),
    StableHlo.TRef.nullary main_call0.c_0 (constantI S_ 32 50000#32),
    StableHlo.TRef.unary main_call0.c_0 main_call0.v2 (broadcastInDim S800000 ![] bcast_S_S800000),
    StableHlo.TRef.binary (.of main_v1 : StableHlo.TRef sig ⟨S800000, .i32⟩) main_call0.v2 main_call0.v3 addi,
    StableHlo.TRef.ternary main_call0.v1 main_call0.v3 (.of main_v1 : StableHlo.TRef sig ⟨S800000, .i32⟩) main_call0.call0.v0 select,
    StableHlo.TRef.unary main_call0.call0.v0 main_call0.v5 (broadcastInDim S800000x1 ![0] bcast_S800000_S800000x1_0),
    StableHlo.TRef.nullary main_call0.c_1 (constantI S1 32 49999#32),
    StableHlo.TRef.nullary main_call0.c_2 (constantI S_ 32 0#32),
    StableHlo.TRef.unary main_call0.c_2 main_call0.v6 (broadcastInDim S800000x1 ![] bcast_S_S800000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S800000x1 ![0, 1] bcast_S1x1_S800000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S800000x1_S800000_d1 h_S_),
    StableHlo.TRef.binary (.of main_arg0 : StableHlo.TRef sig ⟨S50000x256, .f32⟩) main_call0.v5 main_call0.v13 (fun x i => Host.gather gather_S50000x256_S800000x1_S800000x256_1_0_n_n_0_1_1256 x i),
    StableHlo.TRef.unary main_call0.v12 main_call0.v14 (broadcastInDim S800000x256 ![0] bcast_S800000_S800000x256_0),
    StableHlo.TRef.nullary main_call0.cst (constant S_ .f32 0x7FC00000#32),
    StableHlo.TRef.unary main_call0.cst main_call0.v15 (broadcastInDim S800000x256 ![] bcast_S_S800000x256),
    StableHlo.TRef.ternary main_call0.v14 main_call0.v13 main_call0.v15 main_call0.v16 select,
    StableHlo.nullary main_cst (constant S_ .f32 0x00000000#32),
    StableHlo.unary main_cst main_v5 (broadcastInDim S50000x256 ![] bcast_S_S50000x256 : (⟨S_, .f32⟩ : BufTy).Contents (Elt F) → (⟨S50000x256, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_0 (constant S_ .f32 0x3F800000#32),
    StableHlo.unary main_cst_0 main_v8 (broadcastInDim S800000 ![] bcast_S_S800000 : (⟨S_, .f32⟩ : BufTy).Contents (Elt F) → (⟨S800000, .f32⟩ : BufTy).Contents (Elt F)),
    StableHlo.nullary main_cst_1 (constant S_ .f32 0x00000000#32),
    StableHlo.unary main_cst_1 main_v9 (broadcastInDim S50000 ![] bcast_S_S50000 : (⟨S_, .f32⟩ : BufTy).Contents (Elt F) → (⟨S50000, .f32⟩ : BufTy).Contents (Elt F)),
    StableHlo.unary main_v3 main_v10 (broadcastInDim S800000x1 ![0] bcast_S800000_S800000x1_0 : (⟨S800000, .i32⟩ : BufTy).Contents (Elt F) → (⟨S800000x1, .i32⟩ : BufTy).Contents (Elt F)),
    StableHlo.ternary main_v9 main_v10 main_v8 main_v11 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.unary main_cst_2 main_v12 (broadcastInDim S50000 ![] bcast_S_S50000 : (⟨S_, .f32⟩ : BufTy).Contents (Elt F) → (⟨S50000, .f32⟩ : BufTy).Contents (Elt F)),
    StableHlo.binary main_v11 main_v12 main_v13 (maximumf : (⟨S50000, .f32⟩ : BufTy).Contents (Elt F) → (⟨S50000, .f32⟩ : BufTy).Contents (Elt F) → (⟨S50000, .f32⟩ : BufTy).Contents (Elt F)),
    StableHlo.unary main_v13 main_v14 (broadcastInDim S50000x1 ![0] bcast_S50000_S50000x1_0 : (⟨S50000, .f32⟩ : BufTy).Contents (Elt F) → (⟨S50000x1, .f32⟩ : BufTy).Contents (Elt F)),
    StableHlo.unary main_v14 main_v15 (broadcastInDim S50000x256 ![0, 1] bcast_S50000x1_S50000x256_0_1 : (⟨S50000x1, .f32⟩ : BufTy).Contents (Elt F) → (⟨S50000x256, .f32⟩ : BufTy).Contents (Elt F)),
    StableHlo.binary main_v7 main_v15 main_v16 (Host.divf : (⟨S50000x256, .f32⟩ : BufTy).Contents (Elt F) → (⟨S50000x256, .f32⟩ : BufTy).Contents (Elt F) → (⟨S50000x256, .f32⟩ : BufTy).Contents (Elt F)),
    StableHlo.binary main_v16 main_arg2 main_v17 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg3 main_v18 (broadcastInDim S1x256 ![1] bcast_S256_S1x256_1 : (⟨S256, .f32⟩ : BufTy).Contents (Elt F) → (⟨S1x256, .f32⟩ : BufTy).Contents (Elt F)),
    StableHlo.unary main_v18 main_v19 (broadcastInDim S50000x256 ![0, 1] bcast_S1x256_S50000x256_0_1 : (⟨S1x256, .f32⟩ : BufTy).Contents (Elt F) → (⟨S50000x256, .f32⟩ : BufTy).Contents (Elt F)),
    StableHlo.binary main_v17 main_v19 main_v20 (addf : (⟨S50000x256, .f32⟩ : BufTy).Contents (Elt F) → (⟨S50000x256, .f32⟩ : BufTy).Contents (Elt F) → (⟨S50000x256, .f32⟩ : BufTy).Contents (Elt F)),
    StableHlo.binary main_arg0 main_arg4 main_v21 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v20 main_v21 main_v22 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v22 : StableHlo.TRef sig ⟨S50000x256, .f32⟩) main_call1.v0 main_call1.v1 maximumf ]

/-- The operations of @main after it: the second row take and the second layer. -/
abbrev opsB : List (HloOp τ sig (Elt F)) :=
  [ StableHlo.TRef.nullary main_call2.c (constantI S_ 32 0#32),
    StableHlo.TRef.unary main_call2.c main_call2.v0 (broadcastInDim S800000 ![] bcast_S_S800000),
    StableHlo.TRef.binary (.of main_v1 : StableHlo.TRef sig ⟨S800000, .i32⟩) main_call2.v0 main_call2.v1 (cmpi .slt),
    StableHlo.TRef.nullary main_call2.c_0 (constantI S_ 32 50000#32),
    StableHlo.TRef.unary main_call2.c_0 main_call2.v2 (broadcastInDim S800000 ![] bcast_S_S800000),
    StableHlo.TRef.binary (.of main_v1 : StableHlo.TRef sig ⟨S800000, .i32⟩) main_call2.v2 main_call2.v3 addi,
    StableHlo.TRef.ternary main_call2.v1 main_call2.v3 (.of main_v1 : StableHlo.TRef sig ⟨S800000, .i32⟩) main_call2.call0.v0 select,
    StableHlo.TRef.unary main_call2.call0.v0 main_call2.v5 (broadcastInDim S800000x1 ![0] bcast_S800000_S800000x1_0),
    StableHlo.TRef.nullary main_call2.c_1 (constantI S1 32 49999#32),
    StableHlo.TRef.nullary main_call2.c_2 (constantI S_ 32 0#32),
    StableHlo.TRef.unary main_call2.c_2 main_call2.v6 (broadcastInDim S800000x1 ![] bcast_S_S800000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S800000x1 ![0, 1] bcast_S1x1_S800000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S800000x1_S800000_d1 h_S_),
    StableHlo.TRef.binary (.of main_v23 : StableHlo.TRef sig ⟨S50000x256, .f32⟩) main_call2.v5 main_call2.v13 (fun x i => Host.gather gather_S50000x256_S800000x1_S800000x256_1_0_n_n_0_1_1256 x i),
    StableHlo.TRef.unary main_call2.v12 main_call2.v14 (broadcastInDim S800000x256 ![0] bcast_S800000_S800000x256_0),
    StableHlo.TRef.nullary main_call2.cst (constant S_ .f32 0x7FC00000#32),
    StableHlo.TRef.unary main_call2.cst main_call2.v15 (broadcastInDim S800000x256 ![] bcast_S_S800000x256),
    StableHlo.TRef.ternary main_call2.v14 main_call2.v13 main_call2.v15 main_call2.v16 select,
    StableHlo.nullary main_cst_3 (constant S_ .f32 0x00000000#32),
    StableHlo.unary main_cst_3 main_v25 (broadcastInDim S50000x256 ![] bcast_S_S50000x256 : (⟨S_, .f32⟩ : BufTy).Contents (Elt F) → (⟨S50000x256, .f32⟩ : BufTy).Contents (Elt F)),
    StableHlo.unary main_v3 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v24 main_v27 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_4 (constant S_ .f32 0x3F800000#32),
    StableHlo.unary main_cst_4 main_v28 (broadcastInDim S800000 ![] bcast_S_S800000 : (⟨S_, .f32⟩ : BufTy).Contents (Elt F) → (⟨S800000, .f32⟩ : BufTy).Contents (Elt F)),
    StableHlo.nullary main_cst_5 (constant S_ .f32 0x00000000#32),
    StableHlo.unary main_cst_5 main_v29 (broadcastInDim S50000 ![] bcast_S_S50000 : (⟨S_, .f32⟩ : BufTy).Contents (Elt F) → (⟨S50000, .f32⟩ : BufTy).Contents (Elt F)),
    StableHlo.unary main_v3 main_v30 (broadcastInDim S800000x1 ![0] bcast_S800000_S800000x1_0 : (⟨S800000, .i32⟩ : BufTy).Contents (Elt F) → (⟨S800000x1, .i32⟩ : BufTy).Contents (Elt F)),
    StableHlo.ternary main_v29 main_v30 main_v28 main_v31 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_6 (constant S_ .f32 0x3F800000#32),
    StableHlo.unary main_cst_6 main_v32 (broadcastInDim S50000 ![] bcast_S_S50000 : (⟨S_, .f32⟩ : BufTy).Contents (Elt F) → (⟨S50000, .f32⟩ : BufTy).Contents (Elt F)),
    StableHlo.binary main_v31 main_v32 main_v33 (maximumf : (⟨S50000, .f32⟩ : BufTy).Contents (Elt F) → (⟨S50000, .f32⟩ : BufTy).Contents (Elt F) → (⟨S50000, .f32⟩ : BufTy).Contents (Elt F)),
    StableHlo.unary main_v33 main_v34 (broadcastInDim S50000x1 ![0] bcast_S50000_S50000x1_0 : (⟨S50000, .f32⟩ : BufTy).Contents (Elt F) → (⟨S50000x1, .f32⟩ : BufTy).Contents (Elt F)),
    StableHlo.unary main_v34 main_v35 (broadcastInDim S50000x256 ![0, 1] bcast_S50000x1_S50000x256_0_1 : (⟨S50000x1, .f32⟩ : BufTy).Contents (Elt F) → (⟨S50000x256, .f32⟩ : BufTy).Contents (Elt F)),
    StableHlo.binary main_v27 main_v35 main_v36 (Host.divf : (⟨S50000x256, .f32⟩ : BufTy).Contents (Elt F) → (⟨S50000x256, .f32⟩ : BufTy).Contents (Elt F) → (⟨S50000x256, .f32⟩ : BufTy).Contents (Elt F)),
    StableHlo.binary main_v36 main_arg5 main_v37 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S50000x256 ![0, 1] bcast_S1x256_S50000x256_0_1 : (⟨S1x256, .f32⟩ : BufTy).Contents (Elt F) → (⟨S50000x256, .f32⟩ : BufTy).Contents (Elt F)),
    StableHlo.binary main_v37 main_v39 main_v40 (addf : (⟨S50000x256, .f32⟩ : BufTy).Contents (Elt F) → (⟨S50000x256, .f32⟩ : BufTy).Contents (Elt F) → (⟨S50000x256, .f32⟩ : BufTy).Contents (Elt F)),
    StableHlo.binary main_v23 main_arg7 main_v41 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v40 main_v41 main_v42 (addf : (⟨S50000x256, .f32⟩ : BufTy).Contents (Elt F) → (⟨S50000x256, .f32⟩ : BufTy).Contents (Elt F) → (⟨S50000x256, .f32⟩ : BufTy).Contents (Elt F)) ]

/-- The whole line is the two stretches one after the other. -/
theorem ops_split : (ops : List (HloOp τ sig (Elt F))) = opsA ++ opsB := rfl

/-- The contents after two stretches run one after the other: the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

attribute [local irreducible] Host.gather Host.scatterAdd Host.reduce

/-- The fold read at one buffer in one rewriting pass: each operation's result at its own buffer, what was there at
    any other, and the typed references' transports (the identity at literal references) removed. -/
local macro "read_fold" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      cast_eq]))

/-! ### The second stretch, from any contents -/

set_option maxRecDepth 16384 in
set_option maxHeartbeats 2000000 in
/-- After the second stretch the result buffer holds one layer of the first layer's output buffer, the two edge-row
    buffers and the second layer's parameters. -/
theorem B_out (W : Valuation τ sig (Elt F)) :
    after opsB W (main_v42 : DevRef τ sig)
      = Spec.layerFn (W (main_v23 : DevRef τ sig)) (W (main_v1 : DevRef τ sig)) (W (main_v3 : DevRef τ sig))
          (W (main_arg5 : DevRef τ sig)) (W (main_arg6 : DevRef τ sig)) (W (main_arg7 : DevRef τ sig)) := by
  read_fold <;> rfl

set_option maxRecDepth 16384 in
set_option maxHeartbeats 2000000 in
section
theorem B_arg0 (V : Valuation τ sig (Elt F)) :
    after opsB V (main_arg0 : DevRef τ sig) = V (main_arg0 : DevRef τ sig) := by read_fold
theorem B_arg1 (V : Valuation τ sig (Elt F)) :
    after opsB V (main_arg1 : DevRef τ sig) = V (main_arg1 : DevRef τ sig) := by read_fold
theorem B_arg2 (V : Valuation τ sig (Elt F)) :
    after opsB V (main_arg2 : DevRef τ sig) = V (main_arg2 : DevRef τ sig) := by read_fold
theorem B_arg3 (V : Valuation τ sig (Elt F)) :
    after opsB V (main_arg3 : DevRef τ sig) = V (main_arg3 : DevRef τ sig) := by read_fold
theorem B_arg4 (V : Valuation τ sig (Elt F)) :
    after opsB V (main_arg4 : DevRef τ sig) = V (main_arg4 : DevRef τ sig) := by read_fold
theorem B_arg5 (V : Valuation τ sig (Elt F)) :
    after opsB V (main_arg5 : DevRef τ sig) = V (main_arg5 : DevRef τ sig) := by read_fold
theorem B_arg6 (V : Valuation τ sig (Elt F)) :
    after opsB V (main_arg6 : DevRef τ sig) = V (main_arg6 : DevRef τ sig) := by read_fold
theorem B_arg7 (V : Valuation τ sig (Elt F)) :
    after opsB V (main_arg7 : DevRef τ sig) = V (main_arg7 : DevRef τ sig) := by read_fold
end

/-! ### The first stretch -/

set_option maxRecDepth 16384 in
set_option maxHeartbeats 2000000 in
/-- After the first stretch the first layer's output buffer holds the rectified layer of the arguments. -/
theorem A_out (V : Valuation τ sig (Elt F)) :
    after opsA V (main_v23 : DevRef τ sig)
      = Spec.reluFn (Spec.layerFn (V (main_arg0 : DevRef τ sig)) (Spec.srcOf (F := F) (V (main_arg1 : DevRef τ sig))) (Spec.dstOf (F := F) (V (main_arg1 : DevRef τ sig)))
          (V (main_arg2 : DevRef τ sig)) (V (main_arg3 : DevRef τ sig)) (V (main_arg4 : DevRef τ sig))) := by
  read_fold <;> rfl

set_option maxRecDepth 16384 in
set_option maxHeartbeats 2000000 in
section
/-- The edge list's two rows, in their buffers. -/
theorem A_src (V : Valuation τ sig (Elt F)) :
    after opsA V (main_v1 : DevRef τ sig) = Spec.srcOf (F := F) (V (main_arg1 : DevRef τ sig)) := by
  read_fold <;> rfl
theorem A_dst (V : Valuation τ sig (Elt F)) :
    after opsA V (main_v3 : DevRef τ sig) = Spec.dstOf (F := F) (V (main_arg1 : DevRef τ sig)) := by
  read_fold <;> rfl
theorem A_arg0 (V : Valuation τ sig (Elt F)) :
    after opsA V (main_arg0 : DevRef τ sig) = V (main_arg0 : DevRef τ sig) := by read_fold
theorem A_arg1 (V : Valuation τ sig (Elt F)) :
    after opsA V (main_arg1 : DevRef τ sig) = V (main_arg1 : DevRef τ sig) := by read_fold
theorem A_arg2 (V : Valuation τ sig (Elt F)) :
    after opsA V (main_arg2 : DevRef τ sig) = V (main_arg2 : DevRef τ sig) := by read_fold
theorem A_arg3 (V : Valuation τ sig (Elt F)) :
    after opsA V (main_arg3 : DevRef τ sig) = V (main_arg3 : DevRef τ sig) := by read_fold
theorem A_arg4 (V : Valuation τ sig (Elt F)) :
    after opsA V (main_arg4 : DevRef τ sig) = V (main_arg4 : DevRef τ sig) := by read_fold
theorem A_arg5 (V : Valuation τ sig (Elt F)) :
    after opsA V (main_arg5 : DevRef τ sig) = V (main_arg5 : DevRef τ sig) := by read_fold
theorem A_arg6 (V : Valuation τ sig (Elt F)) :
    after opsA V (main_arg6 : DevRef τ sig) = V (main_arg6 : DevRef τ sig) := by read_fold
theorem A_arg7 (V : Valuation τ sig (Elt F)) :
    after opsA V (main_arg7 : DevRef τ sig) = V (main_arg7 : DevRef τ sig) := by read_fold
end

/-! ### The whole line -/

/-- The result buffer after the whole line is the network of the argument buffers' contents. -/
theorem out_eq (V : Valuation τ sig (Elt F)) :
    after ops V (main_v42 : DevRef τ sig)
      = Spec.refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  rw [ops_split, after_append, B_out, A_out, A_src, A_dst, A_arg5, A_arg6, A_arg7]
  rfl

theorem arg0_eq (V : Valuation τ sig (Elt F)) :
    after ops V (main_arg0 : DevRef τ sig) = V (main_arg0 : DevRef τ sig) := by
  rw [ops_split, after_append, B_arg0, A_arg0]
theorem arg1_eq (V : Valuation τ sig (Elt F)) :
    after ops V (main_arg1 : DevRef τ sig) = V (main_arg1 : DevRef τ sig) := by
  rw [ops_split, after_append, B_arg1, A_arg1]
theorem arg2_eq (V : Valuation τ sig (Elt F)) :
    after ops V (main_arg2 : DevRef τ sig) = V (main_arg2 : DevRef τ sig) := by
  rw [ops_split, after_append, B_arg2, A_arg2]
theorem arg3_eq (V : Valuation τ sig (Elt F)) :
    after ops V (main_arg3 : DevRef τ sig) = V (main_arg3 : DevRef τ sig) := by
  rw [ops_split, after_append, B_arg3, A_arg3]
theorem arg4_eq (V : Valuation τ sig (Elt F)) :
    after ops V (main_arg4 : DevRef τ sig) = V (main_arg4 : DevRef τ sig) := by
  rw [ops_split, after_append, B_arg4, A_arg4]
theorem arg5_eq (V : Valuation τ sig (Elt F)) :
    after ops V (main_arg5 : DevRef τ sig) = V (main_arg5 : DevRef τ sig) := by
  rw [ops_split, after_append, B_arg5, A_arg5]
theorem arg6_eq (V : Valuation τ sig (Elt F)) :
    after ops V (main_arg6 : DevRef τ sig) = V (main_arg6 : DevRef τ sig) := by
  rw [ops_split, after_append, B_arg6, A_arg6]
theorem arg7_eq (V : Valuation τ sig (Elt F)) :
    after ops V (main_arg7 : DevRef τ sig) = V (main_arg7 : DevRef τ sig) := by
  rw [ops_split, after_append, B_arg7, A_arg7]

/-- On every device, for any float values, from any memory with zero counters: every weakly fair execution of
    @main terminates with the result buffer at the network of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v42).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.lean ====
/-
  A two-layer mean-aggregation graph network: the kernel program against its reference, at the exact values.

  Per layer, every node's new features are  (S / max(d, 1)) · W_l + b + x · W_r,  where S is the sum of the rows of
  the layer's input x at the source nodes of the edges that end at the node and d is the number of those edges; the
  first layer is rectified. The kernel program sorts the edges by destination before it sums, multiplies by the
  reciprocal 1 / max(d, 1) where the reference divides, narrows the weights to sixteen bits before its matrix
  products, and computes the dense part in two pipelined regions of 25 blocks of 2000 nodes each.

  At the exact values none of this changes the result: a per-node sum does not depend on the order of the edges;
  the divisor is at least one, so the quotient is the product with the reciprocal on all extended reals; the
  narrowing is the identity; and each region's 25 blocks tile its output array. The frames of the two kernel
  programs are the generated ones; the reference's frame is its run with the result dropped; no rewrite was made in
  idealizing the kernel, so nothing is owed for it.
-/
import proofs.«136564_j80066780332145_2_alg».proof.Defs
import proofs.«136564_j80066780332145_2_alg».proof.Proof.Gen.Kernel
import proofs.«136564_j80066780332145_2_alg».proof.Proof.Gen.Kernel.Frame
import proofs.«136564_j80066780332145_2_alg».proof.Proof.Gen.KernelIdeal
import proofs.«136564_j80066780332145_2_alg».proof.Proof.Gen.KernelIdeal.Frame
import proofs.«136564_j80066780332145_2_alg».proof.Proof.Gen.ReferenceIdeal
import proofs.«136564_j80066780332145_2_alg».proof.Proof.Gen.Pre_finite_inputs
import proofs.«136564_j80066780332145_2_alg».proof.Proof.KerRun
import proofs.«136564_j80066780332145_2_alg».proof.Proof.Bridge
import proofs.«136564_j80066780332145_2_alg».proof.Proof.RefRun

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories that agree on the arguments both programs end with the result array at the reference's network
    of the arguments. -/
theorem algebraic : Cert.algebraic_KernelIdeal_ReferenceIdeal := by
  intro m ρ m' ρ' _ hagree
  refine ⟨fun c => Cert.ReferenceIdeal.Spec.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Bridge.kernel_value m ρ c), (h c).2⟩) (Cert.KernelIdeal.Run.run_main m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
